-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.truncf_extf.Statement Cert.KernelIdeal.S1024x512 .f32 .bf16
  ∧ IdealRules.truncf_extf.Statement Cert.KernelIdeal.S1024x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x128 : Shape := ⟨2, ![1024, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x128 : S_.BroadcastsInDim S1024x128 (![] : Fin 0 → Fin S1024x128.rank)
  reducesTo_S1024x128_S_d0_1 : S1024x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg0 : FVec F S1024x1024 .f32) (main_v48 : IVec S_ 1) (main_v50 : IVec S1024x1024 1) : IVec S_ 1 :=
  let main_cst_19 : FVec F S_ .f32 := constant S_ .f32 0x3F800000#32
  let main_v51 : FVec F S1024x1024 .f32 := broadcastInDim S1024x1024 ![] bcast_S_S1024x1024 main_cst_19
  let main_v52 : IVec S1024x1024 1 := cmpf .oeq main_arg0 main_v51
  let main_v53 : IVec S1024x1024 1 := ori main_v50 main_v52
  let main_c_20 : IVec S_ 1 := constantI S_ 1 1#1
  let main_v54 : IVec S_ 1 := (fun x v => Host.reduce IntOp.andi x v reducesTo_S1024x1024_S_d0_1 h_S_) main_v53 main_c_20
  let main_v55 : IVec S_ 1 := andi main_v48 main_v54
  main_v55

def fn_part2 {F : FTy → Type} [FloatOps F] (main_arg0 : FVec F S1024x1024 .f32) (main_arg7 : FVec F S256 .f32) (main_arg8 : FVec F S256x1 .f32) (main_arg9 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1 .f32 := Host.absf main_arg8
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_cst_18 : FVec F S_ .f32 := constant S_ .f32 0x00000000#32
  let main_v49 : FVec F S1024x1024 .f32 := broadcastInDim S1024x1024 ![] bcast_S_S1024x1024 main_cst_18
  let main_v50 : IVec S1024x1024 1 := cmpf .oeq main_arg0 main_v49
  fn_part3 (F := F) main_arg0 main_v48 main_v50

def fn_part1 {F : FTy → Type} [FloatOps F] (main_arg0 : FVec F S1024x1024 .f32) (main_arg4 : FVec F S512x128 .f32) (main_arg5 : FVec F S128 .f32) (main_arg6 : FVec F S128x256 .f32) (main_arg7 : FVec F S256 .f32) (main_arg8 : FVec F S256x1 .f32) (main_arg9 : FVec F S1 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg0 main_arg7 main_arg8 main_arg9 main_v33

def fn {F : FTy → Type} [FloatOps F] (main_arg0 : FVec F S1024x1024 .f32) (main_arg1 : FVec F S1024x128 .f32) (main_arg2 : FVec F S128x512 .f32) (main_arg3 : FVec F S512 .f32) (main_arg4 : FVec F S512x128 .f32) (main_arg5 : FVec F S128 .f32) (main_arg6 : FVec F S128x256 .f32) (main_arg7 : FVec F S256 .f32) (main_arg8 : FVec F S256x1 .f32) (main_arg9 : FVec F S1 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg0 main_arg4 main_arg5 main_arg6 main_arg7 main_arg8 main_arg9 main_v13 main_v16
-- ==== Kernel.lean ====
abbrev S1024x1024 : Shape := ⟨2, ![1024, 1024]⟩
abbrev S1024x128 : Shape := ⟨2, ![1024, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S1x512 : Shape := ⟨2, ![1, 512]⟩
abbrev S1x128 : Shape := ⟨2, ![1, 128]⟩
abbrev S1x256 : Shape := ⟨2, ![1, 256]⟩
abbrev S1x1 : Shape := ⟨2, ![1, 1]⟩
abbrev S1024x1 : Shape := ⟨2, ![1024, 1]⟩
abbrev S1024x512 : Shape := ⟨2, ![1024, 512]⟩
abbrev S1024x256 : Shape := ⟨2, ![1024, 256]⟩

abbrev nBuf : Space → Nat
  | .hbm => 16
  | .vmem => 12
  | .smem => 0
  | _ => 0

abbrev bufTy : (tb : Table) → Fin (tcTables nBuf tb) → BufTy
  | .hbm, ⟨0, _⟩ => ⟨S1024x1024, .f32⟩
  | .hbm, ⟨1, _⟩ => ⟨S1024x128, .f32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S1x512, .f32⟩
  | .hbm, ⟨11, _⟩ => ⟨S1x128, .f32⟩
  | .hbm, ⟨12, _⟩ => ⟨S1x256, .f32⟩
  | .hbm, ⟨13, _⟩ => ⟨S1x1, .f32⟩
  | .hbm, ⟨14, _⟩ => ⟨S1024x128, .f32⟩
  | .hbm, ⟨15, _⟩ => ⟨S1024x1, .f32⟩
  | .local _ .vmem, ⟨0, _⟩ => ⟨S1024x1024, .f32⟩
  | .local _ .vmem, ⟨1, _⟩ => ⟨S1024x128, .f32⟩
  | .local _ .vmem, ⟨2, _⟩ => ⟨S128x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S128x256, .f32⟩
  | .local _ .vmem, ⟨7, _⟩ => ⟨S1x256, .f32⟩
  | .local _ .vmem, ⟨8, _⟩ => ⟨S256x1, .f32⟩
  | .local _ .vmem, ⟨9, _⟩ => ⟨S1x1, .f32⟩
  | .local _ .vmem, ⟨10, _⟩ => ⟨S1024x128, .f32⟩
  | .local _ .vmem, ⟨11, _⟩ => ⟨S1024x1, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1024x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1024x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

class Facts₀ : Prop where
  shapeCasts_S512_S1x512 : S512.ShapeCasts S1x512
  shapeCasts_S128_S1x128 : S128.ShapeCasts S1x128
  shapeCasts_S256_S1x256 : S256.ShapeCasts S1x256
  shapeCasts_S1_S1x1 : S1.ShapeCasts S1x1
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S128x512_S128x512_0_0 : ∀ a, (![0, 0] : Fin 2 → Nat) a + S128x512.size a ≤ S128x512.size a
  h_S128x512 : 0 < S128x512.numel
  broadcasts_S1024x1_S1024x512 : S1024x1.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x128_S512x128_0_0 : ∀ a, (![0, 0] : Fin 2 → Nat) a + S512x128.size a ≤ S512x128.size a
  h_S512x128 : 0 < S512x128.numel
  broadcasts_S1024x1_S1024x128 : S1024x1.Broadcasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x1024_S1024x1_S1024x1_0_0_1_1_n_n_wf : DotDims.WF S1024x1024 S1024x1 S1024x1 [0] [0] [1] [1] [] []
  dot_S1024x128_S128x512_S1024x512_1_0_0_1_n_n_wf : DotDims.WF S1024x128 S128x512 S1024x512 [1] [0] [0] [1] [] []
  dot_S1024x1024_S1024x512_S1024x512_0_0_1_1_n_n_wf : DotDims.WF S1024x1024 S1024x512 S1024x512 [0] [0] [1] [1] [] []
  dot_S1024x512_S512x128_S1024x128_1_0_0_1_n_n_wf : DotDims.WF S1024x512 S512x128 S1024x128 [1] [0] [0] [1] [] []
  dot_S1024x1024_S1024x128_S1024x128_0_0_1_1_n_n_wf : DotDims.WF S1024x1024 S1024x128 S1024x128 [0] [0] [1] [1] [] []
  dot_S1024x128_S128x256_S1024x256_1_0_0_1_n_n_wf : DotDims.WF S1024x128 S128x256 S1024x256 [1] [0] [0] [1] [] []
  dot_S1024x256_S256x1_S1024x1_1_0_0_1_n_n_wf : DotDims.WF S1024x256 S256x1 S1024x1 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole

variable [Facts₀]

def dot_S1024x1024_S1024x1_S1024x1_0_0_1_1_n_n : DotDims S1024x1024 S1024x1 S1024x1 where
  lhsContracting := [0]
  rhsContracting := [0]
  lhsNonContracting := [1]
  rhsNonContracting := [1]
  lhsBatch := []
  rhsBatch := []
  wf := dot_S1024x1024_S1024x1_S1024x1_0_0_1_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x1024_S1024x512_S1024x512_0_0_1_1_n_n : DotDims S1024x1024 S1024x512 S1024x512 where
  lhsContracting := [0]
  rhsContracting := [0]
  lhsNonContracting := [1]
  rhsNonContracting := [1]
  lhsBatch := []
  rhsBatch := []
  wf := dot_S1024x1024_S1024x512_S1024x512_0_0_1_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v0) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v2) false false (stage0_7 0) (sem0_7 0) (Memref.isWhole_whole _) (hstage0_7 0)

abbrev win0_8 : Pipeline.Window sig grid0 :=
  Pipeline.Window.whole (Memref.whole main_arg8) false false (stage0_8 0) (sem0_8 0) (Memref.isWhole_whole _) (hstage0_8 0)

abbrev win0_9 : Pipeline.Window sig grid0 :=
  Pipeline.Window.whole (Memref.whole main_v3) false false (stage0_9 0) (sem0_9 0) (Memref.isWhole_whole _) (hstage0_9 0)

abbrev win0_10 : Pipeline.Window sig grid0 :=
  Pipeline.Window.whole (Memref.whole main_v4_0) true false (stage0_10 0) (sem0_10 0) (Memref.isWhole_whole _) (hstage0_10 0)

abbrev win0_11 : Pipeline.Window sig grid0 :=
  Pipeline.Window.whole (Memref.whole main_v4_1) true false (stage0_11 0) (sem0_11 0) (Memref.isWhole_whole _) (hstage0_11 0)

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x128 : Shape := ⟨2, ![1024, 128]⟩
abbrev S128x512 : Shape := ⟨2, ![128, 512]⟩
abbrev S512 : Shape := ⟨1, ![512]⟩
abbrev S512x128 : Shape := ⟨2, ![512, 128]⟩
abbrev S128 : Shape := ⟨1, ![128]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩
abbrev S1024 : Shape := ⟨1, ![1024]⟩
abbrev S1024x512 : Shape := ⟨2, ![1024, 512]⟩
abbrev S1024x1 : Shape := ⟨2, ![1024, 1]⟩
abbrev S1x512 : Shape := ⟨2, ![1, 512]⟩
abbrev S1x128 : Shape := ⟨2, ![1, 128]⟩
abbrev S1024x256 : Shape := ⟨2, ![1024, 256]⟩
abbrev S1x256 : Shape := ⟨2, ![1, 256]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x128, .f32⟩
  | .hbm, ⟨2, _⟩ => ⟨S128x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x1, .f32⟩
  | .hbm, ⟨9, _⟩ => ⟨S1, .f32⟩
  | .hbm, ⟨10, _⟩ => ⟨S1024x1024, .i32⟩
  | .hbm, ⟨11, _⟩ => ⟨S1024x1024, .i32⟩
  | .hbm, ⟨12, _⟩ => ⟨S_, .i32⟩
  | .hbm, ⟨13, _⟩ => ⟨S1024x1024, .i32⟩
  | .hbm, ⟨14, _⟩ => ⟨S1024x1024, .i32⟩
  | .hbm, ⟨15, _⟩ => ⟨S1024x1024, .i1⟩
  | .hbm, ⟨16, _⟩ => ⟨S1024x1024, .f32⟩
  | .hbm, ⟨17, _⟩ => ⟨S1024x1024, .f32⟩
  | .hbm, ⟨18, _⟩ => ⟨S1024x1024, .i32⟩
  | .hbm, ⟨19, _⟩ => ⟨S1024x1024, .i32⟩
  | .hbm, ⟨20, _⟩ => ⟨S_, .i32⟩
  | .hbm, ⟨21, _⟩ => ⟨S1024x1024, .i32⟩
  | .hbm, ⟨22, _⟩ => ⟨S1024x1024, .i32⟩
  | .hbm, ⟨23, _⟩ => ⟨S1024x1024, .i1⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .i1⟩
  | .hbm, ⟨31, _⟩ => ⟨S1024, .f32⟩
  | .hbm, ⟨32, _⟩ => ⟨S_, .f32⟩
  | .hbm, ⟨33, _⟩ => ⟨S1024, .f32⟩
  | .hbm, ⟨34, _⟩ => ⟨S1024, .f32⟩
  | .hbm, ⟨35, _⟩ => ⟨S_, .f32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S1024x512, .f32⟩
  | .hbm, ⟨40, _⟩ => ⟨S1024x1, .f32⟩
  | .hbm, ⟨41, _⟩ => ⟨S1024x1024, .f32⟩
  | .hbm, ⟨42, _⟩ => ⟨S1024x1, .f32⟩
  | .hbm, ⟨43, _⟩ => ⟨S1024x512, .f32⟩
  | .hbm, ⟨44, _⟩ => ⟨S1024x512, .f32⟩
  | .hbm, ⟨45, _⟩ => ⟨S1024x512, .f32⟩
  | .hbm, ⟨46, _⟩ => ⟨S1024x512, .f32⟩
  | .hbm, ⟨47, _⟩ => ⟨S1024x512, .f32⟩
  | .hbm, ⟨48, _⟩ => ⟨S1x512, .f32⟩
  | .hbm, ⟨49, _⟩ => ⟨S1024x512, .f32⟩
  | .hbm, ⟨50, _⟩ => ⟨S1024x512, .f32⟩
  | .hbm, ⟨51, _⟩ => ⟨S_, .f32⟩
  | .hbm, ⟨52, _⟩ => ⟨S1024x512, .f32⟩
  | .hbm, ⟨53, _⟩ => ⟨S1024x512, .f32⟩
  | .hbm, ⟨54, _⟩ => ⟨S1024x1024, .i32⟩
  | .hbm, ⟨55, _⟩ => ⟨S1024x1024, .i32⟩
  | .hbm, ⟨56, _⟩ => ⟨S_, .i32⟩
  | .hbm, ⟨57, _⟩ => ⟨S1024x1024, .i32⟩
  | .hbm, ⟨58, _⟩ => ⟨S1024x1024, .i32⟩
  | .hbm, ⟨59, _⟩ => ⟨S1024x1024, .i1⟩
  | .hbm, ⟨60, _⟩ => ⟨S1024x1024, .f32⟩
  | .hbm, ⟨61, _⟩ => ⟨S1024x1024, .f32⟩
  | .hbm, ⟨62, _⟩ => ⟨S_, .f32⟩
  | .hbm, ⟨63, _⟩ => ⟨S1024, .f32⟩
  | .hbm, ⟨64, _⟩ => ⟨S_, .f32⟩
  | .hbm, ⟨65, _⟩ => ⟨S1024, .f32⟩
  | .hbm, ⟨66, _⟩ => ⟨S1024, .i1⟩
  | .hbm, ⟨67, _⟩ => ⟨S1024, .f32⟩
  | .hbm, ⟨68, _⟩ => ⟨S_, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S_, .f32⟩
  | .hbm, ⟨73, _⟩ => ⟨S1024, .f32⟩
  | .hbm, ⟨74, _⟩ => ⟨S1024, .f32⟩
  | .hbm, ⟨75, _⟩ => ⟨S1024x128, .f32⟩
  | .hbm, ⟨76, _⟩ => ⟨S1024x1, .f32⟩
  | .hbm, ⟨77, _⟩ => ⟨S1024x1024, .f32⟩
  | .hbm, ⟨78, _⟩ => ⟨S1024x1, .f32⟩
  | .hbm, ⟨79, _⟩ => ⟨S1024x128, .f32⟩
  | .hbm, ⟨80, _⟩ => ⟨S1024x128, .f32⟩
  | .hbm, ⟨81, _⟩ => ⟨S1024x128, .f32⟩
  | .hbm, ⟨82, _⟩ => ⟨S1024x128, .f32⟩
  | .hbm, ⟨83, _⟩ => ⟨S1024x128, .f32⟩
  | .hbm, ⟨84, _⟩ => ⟨S1x128, .f32⟩
  | .hbm, ⟨85, _⟩ => ⟨S1024x128, .f32⟩
  | .hbm, ⟨86, _⟩ => ⟨S1024x128, .f32⟩
  | .hbm, ⟨87, _⟩ => ⟨S_, .f32⟩
  | .hbm, ⟨88, _⟩ => ⟨S1024x128, .f32⟩
  | .hbm, ⟨89, _⟩ => ⟨S1024x128, .f32⟩
  | .hbm, ⟨90, _⟩ => ⟨S1024x256, .f32⟩
  | .hbm, ⟨91, _⟩ => ⟨S1x256, .f32⟩
  | .hbm, ⟨92, _⟩ => ⟨S1024x256, .f32⟩
  | .hbm, ⟨93, _⟩ => ⟨S1024x256, .f32⟩
  | .hbm, ⟨94, _⟩ => ⟨S_, .f32⟩
  | .hbm, ⟨95, _⟩ => ⟨S1024x256, .f32⟩
  | .hbm, ⟨96, _⟩ => ⟨S1024x256, .f32⟩
  | .hbm, ⟨97, _⟩ => ⟨S1024x1, .f32⟩
  | .hbm, ⟨98, _⟩ => ⟨S1x1, .f32⟩
  | .hbm, ⟨99, _⟩ => ⟨S1024x1, .f32⟩
  | .hbm, ⟨100, _⟩ => ⟨S1024x1, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_cst : Ref sig .tc := ⟨.hbm, 51, rfl⟩
abbrev main_call1_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_4 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_5 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_7 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_call2_v0 : Ref sig .tc := ⟨.hbm, 72, rfl⟩
abbrev main_call2_v1 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_call3_cst : Ref sig .tc := ⟨.hbm, 87, rfl⟩
abbrev main_call3_v0 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_call4_cst : Ref sig .tc := ⟨.hbm, 94, rfl⟩
abbrev main_call4_v0 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  reducesTo_S1024x1024_S1024_d0 : S1024x1024.ReducesTo [0] S1024
  h_S_ : 0 < S_.numel
  bcast_S_S1024 : S_.BroadcastsInDim S1024 (![] : Fin 0 → Fin S1024.rank)
  bcast_S1024_S1024x1_0 : S1024.BroadcastsInDim S1024x1 (![0] : Fin 1 → Fin S1024x1.rank)
  transposes_S1024x1024_S1024x1024_1_0 : S1024x1024.Transposes [1, 0] S1024x1024
  bcast_S1024x1_S1024x512_0_1 : S1024x1.BroadcastsInDim S1024x512 (![0, 1] : Fin 2 → Fin S1024x512.rank)
  bcast_S512_S1x512_1 : S512.BroadcastsInDim S1x512 (![1] : Fin 1 → Fin S1x512.rank)
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  bcast_S1024x1_S1024x128_0_1 : S1024x1.BroadcastsInDim S1024x128 (![0, 1] : Fin 2 → Fin S1024x128.rank)
  bcast_S128_S1x128_1 : S128.BroadcastsInDim S1x128 (![1] : Fin 1 → Fin S1x128.rank)
  bcast_S1x128_S1024x128_0_1 : S1x128.BroadcastsInDim S1024x128 (![0, 1] : Fin 2 → Fin S1024x128.rank)
  bcast_S_S1024x128 : S_.BroadcastsInDim S1024x128 (![] : Fin 0 → Fin S1024x128.rank)
  bcast_S256_S1x256_1 : S256.BroadcastsInDim S1x256 (![1] : Fin 1 → Fin S1x256.rank)
  bcast_S1x256_S1024x256_0_1 : S1x256.BroadcastsInDim S1024x256 (![0, 1] : Fin 2 → Fin S1024x256.rank)
  bcast_S_S1024x256 : S_.BroadcastsInDim S1024x256 (![] : Fin 0 → Fin S1024x256.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  dot_S1024x128_S128x512_S1024x512_1_0_0_1_n_n_wf : DotDims.WF S1024x128 S128x512 S1024x512 [1] [0] [0] [1] [] []
  dot_S1024x1024_S1024x512_S1024x512_1_0_0_1_n_n_wf : DotDims.WF S1024x1024 S1024x512 S1024x512 [1] [0] [0] [1] [] []
  dot_S1024x512_S512x128_S1024x128_1_0_0_1_n_n_wf : DotDims.WF S1024x512 S512x128 S1024x128 [1] [0] [0] [1] [] []
  dot_S1024x1024_S1024x128_S1024x128_1_0_0_1_n_n_wf : DotDims.WF S1024x1024 S1024x128 S1024x128 [1] [0] [0] [1] [] []
  dot_S1024x128_S128x256_S1024x256_1_0_0_1_n_n_wf : DotDims.WF S1024x128 S128x256 S1024x256 [1] [0] [0] [1] [] []
  dot_S1024x256_S256x1_S1024x1_1_0_0_1_n_n_wf : DotDims.WF S1024x256 S256x1 S1024x1 [1] [0] [0] [1] [] []

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf

class Facts : Prop extends Facts₀ where

variable [Facts]
-- ==== Proof.PreFacts.lean ====
/- The precondition's consequences as facts about extended reals.

   The predicate is a conjunction of eleven whole-array tests, each a reduction by `and` of an array of truth values
   to a single word: for every float input "each entry's absolute value is below +infinity", and for the first input
   "each entry equals 0.0 or equals 1.0". Read at the ideal values, an entry whose absolute value max x (-x) is
   strictly below the top element is neither the bottom nor the top element, hence a real number; and an entry that
   compares equal to the value of the pattern of 0.0 or of 1.0 is the extended real 0 or 1. -/
import proofs.«104248_g70214125355148_fold_wed_m_1087_4_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.PreFacts

open Idealize.ShloMosaic
open Cert.Pre_finite_inputs

/-- The rank-0 shape has exactly one index: a function out of the empty type of axes. -/
instance : Subsingleton S_.Idx := ⟨fun a b => funext fun d => d.elim0⟩

/-- The f32 pattern with exponent all ones and zero fraction denotes the top element. -/
theorem ofBits_inf : Ideal.ofBits .f32 0x7F800000#32 = (⊤ : EReal) := by
  simp [Ideal.ofBits, Ideal.ieee]

/-- The f32 pattern of `1.0` (biased exponent 127, zero fraction) denotes `1`. -/
theorem ofBits_one : Ideal.ofBits .f32 0x3F800000#32 = (1 : EReal) := by
  simp [Ideal.ofBits, Ideal.ieee, -EReal.coe_mul]; norm_num

/-- A truth value packed into one bit is the word `1` exactly when it is true. -/
theorem ofBool_eq_one {b : Bool} : BitVec.ofBool b = 1#1 ↔ b = true := by cases b <;> decide

/-- An extended real whose absolute value `max x (-x)` is strictly below `+∞` is a real: for `x = ⊥` and for
    `x = ⊤` the maximum is `⊤`, which is not below itself. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- An extended real for which "equals 0.0" or "equals 1.0" holds is `0` or `1`. -/
theorem zero_or_one (x : EReal)
    (h : IntOp.ori (Ideal.cmp .oeq x (Ideal.ofBits .f32 0x00000000#32))
        (Ideal.cmp .oeq x (Ideal.ofBits .f32 0x3F800000#32)) = 1#1) :
    x = 0 ∨ x = 1 := by
  rw [Ideal.ofBits_zero_f32, ofBits_one, IntOp.ori_eq_one] at h
  rcases h with h | h
  · left; simpa [Ideal.cmp, ofBool_eq_one] using h
  · right; simpa [Ideal.cmp, ofBool_eq_one] using h

/-- One test "every `|a| < +inf`" over a whole array, read back: the reduction by `and` to the single rank-0 word is
    `1` only if every compared entry gave `1`, and then that entry is a real. -/
theorem all_finite {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
        (cmpf .olt (Host.absf a) (broadcastInDim s ![] hb (constant S_ .f32 0x7F800000#32)))
        (constantI S_ 1 1#1) hr hu ValueIdx.ix0 = 1#1) (i : s.Idx) : ∃ r : ℝ, a i = (r : EReal) :=
  real_of_abs_lt_top (a i) (Host.reduce_andi_all _ _ hr hu _ h i)

/-- The test "every entry equals 0.0 or equals 1.0" over a whole array, read back the same way. -/
theorem all_zero_or_one {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
        (ori (cmpf .oeq a (broadcastInDim s ![] hb (constant S_ .f32 0x00000000#32)))
          (cmpf .oeq a (broadcastInDim s ![] hb (constant S_ .f32 0x3F800000#32))))
        (constantI S_ 1 1#1) hr hu ValueIdx.ix0 = 1#1) (i : s.Idx) : a i = (0 : EReal) ∨ a i = (1 : EReal) :=
  zero_or_one (a i) (Host.reduce_andi_all _ _ hr hu _ h i)

/-- The precondition holding of the ten inputs: the first input's entries are `0` or `1`, and the entries of the
    next four inputs are reals. The predicate's value at the one rank-0 index is a left-nested `and` of the eleven
    tests' words; it is `1` only if each is. -/
theorem facts [Cert.Pre_finite_inputs.Facts] (a0 : FVec Ideal Cert.Pre_finite_inputs.S1024x1024 .f32) (a1 : FVec Ideal Cert.Pre_finite_inputs.S1024x128 .f32) (a2 : FVec Ideal Cert.Pre_finite_inputs.S128x512 .f32) (a3 : FVec Ideal Cert.Pre_finite_inputs.S512 .f32) (a4 : FVec Ideal Cert.Pre_finite_inputs.S512x128 .f32) (a5 : FVec Ideal Cert.Pre_finite_inputs.S128 .f32) (a6 : FVec Ideal Cert.Pre_finite_inputs.S128x256 .f32) (a7 : FVec Ideal Cert.Pre_finite_inputs.S256 .f32) (a8 : FVec Ideal Cert.Pre_finite_inputs.S256x1 .f32) (a9 : FVec Ideal Cert.Pre_finite_inputs.S1 .f32)
      (h : Cert.Pre_finite_inputs.fn (F := Ideal) a0 a1 a2 a3 a4 a5 a6 a7 a8 a9 = fun _ => 1#1) :
      (∀ i, a0 i = (0 : EReal) ∨ a0 i = (1 : EReal))
      ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ValueIdx.ix0
  dsimp only [fn, fn_part1, fn_part2, fn_part3, andi] at h0
  simp only [IntOp.andi_eq_one] at h0
  obtain ⟨⟨⟨⟨⟨⟨⟨⟨⟨⟨_, c1⟩, c2⟩, c3⟩, c4⟩, _⟩, _⟩, _⟩, _⟩, _⟩, c10⟩ := h0
  exact ⟨all_zero_or_one a0 _ _ _ c10, all_finite a1 _ _ _ c1, all_finite a2 _ _ _ c2, all_finite a3 _ _ _ c3,
    all_finite a4 _ _ _ c4⟩

end Cert.PreFacts

end
-- ==== Proof.KernelRun.lean ====
/-
  The kernel's run with each result array as ONE function of the whole argument arrays.

  The kernel has no grid: its one point stages every array whole, so each window's block is its array (every block
  index is zero and every block size is the array's), the body's two stores are through the whole-buffer rectangle,
  and the one point's write-back covers each result array. Hence the first result array ends at `res0` and the
  second at `res1` — the body's arithmetic applied to the whole arrays —, where the four one-row operands are the
  four vector arguments recast to one row by the reshapes that precede the kernel.
-/
import proofs.«104248_g70214125355148_fold_wed_m_1087_4_alg».proof.Proof.Gen.KernelIdeal.Value
import Idealize.ShloMosaic.Lib.Pipeline.Value
import Idealize.ShloMosaic.Lib.StableHlo.Run

set_option maxRecDepth 16384

noncomputable section

namespace Cert.KernelIdeal.WholeRun

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The two zero offsets of every access, as the constant function. -/
theorem hz : (![0, 0] : Fin 2 → Nat) = fun _ => 0 := funext fun a => by fin_cases a <;> rfl

/-! ## The index maps on the one grid point: every block index is zero -/

theorem idx0 : ∀ t : Fin cfg0.N, win0_0.index t (0 : Fin 2) = 0 ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = 0 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem idx5 : ∀ t : Fin cfg0.N, win0_5.index t (0 : Fin 2) = 0 ∧ win0_5.index t (1 : Fin 2) = 0 :=
  (by decide +kernel : ∀ t : Fin grid0.N, _)

theorem idx6 : ∀ t : Fin cfg0.N, win0_6.index t (0 : Fin 2) = 0 ∧ win0_6.index t (1 : Fin 2) = 0 :=
  (by decide +kernel : ∀ t : Fin grid0.N, _)

theorem idx7 : ∀ t : Fin cfg0.N, win0_7.index t (0 : Fin 2) = 0 ∧ win0_7.index t (1 : Fin 2) = 0 :=
  (by decide +kernel : ∀ t : Fin grid0.N, _)

theorem idx8 : ∀ t : Fin cfg0.N, win0_8.index t (0 : Fin 2) = 0 ∧ win0_8.index t (1 : Fin 2) = 0 :=
  (by decide +kernel : ∀ t : Fin grid0.N, _)

theorem idx9 : ∀ t : Fin cfg0.N, win0_9.index t (0 : Fin 2) = 0 ∧ win0_9.index t (1 : Fin 2) = 0 :=
  (by decide +kernel : ∀ t : Fin grid0.N, _)

theorem idx10 : ∀ t : Fin cfg0.N, win0_10.index t (0 : Fin 2) = 0 ∧ win0_10.index t (1 : Fin 2) = 0 :=
  (by decide +kernel : ∀ t : Fin grid0.N, _)

theorem idx11 : ∀ t : Fin cfg0.N, win0_11.index t (0 : Fin 2) = 0 ∧ win0_11.index t (1 : Fin 2) = 0 :=
  (by decide +kernel : ∀ t : Fin grid0.N, _)

/-! ## Each input window's block is its whole array -/

/-- Window 0's block at the one point is the array itself: block index zero, block size the array's. -/
theorem blk0 (c : Dev nD) (t : Fin cfg0.N) : (iblk m c 0 t : Vec F S1024x1024 .f32) = V m c main_arg0 := by
  funext y
  show V m c main_arg0 (((cfg0.win 0).blk t).view.emb y) = V m c main_arg0 y
  refine congrArg (V m c main_arg0) ?_
  funext a; apply Fin.ext
  match a with
  | ⟨0, _⟩ => show win0_0.index t (0 : Fin 2) * 1024 + 1 * (y 0).val = (y 0).val; rw [(idx0 t).1]; omega
  | ⟨1, _⟩ => show win0_0.index t (1 : Fin 2) * 1024 + 1 * (y 1).val = (y 1).val; rw [(idx0 t).2]; omega

/-- Window 1's block at the one point is the array itself: block index zero, block size the array's. -/
theorem blk1 (c : Dev nD) (t : Fin cfg0.N) : (iblk m c 1 t : Vec F S1024x128 .f32) = V m c main_arg1 := by
  funext y
  show V m c main_arg1 (((cfg0.win 1).blk t).view.emb y) = V m c main_arg1 y
  refine congrArg (V m c main_arg1) ?_
  funext a; apply Fin.ext
  match a with
  | ⟨0, _⟩ => show win0_1.index t (0 : Fin 2) * 1024 + 1 * (y 0).val = (y 0).val; rw [(idx1 t).1]; omega
  | ⟨1, _⟩ => show win0_1.index t (1 : Fin 2) * 128 + 1 * (y 1).val = (y 1).val; rw [(idx1 t).2]; omega

/-- Window 2's block at the one point is the array itself: block index zero, block size the array's. -/
theorem blk2 (c : Dev nD) (t : Fin cfg0.N) : (iblk m c 2 t : Vec F S128x512 .f32) = V m c main_arg2 := by
  funext y
  show V m c main_arg2 (((cfg0.win 2).blk t).view.emb y) = V m c main_arg2 y
  refine congrArg (V m c main_arg2) ?_
  funext a; apply Fin.ext
  match a with
  | ⟨0, _⟩ => show win0_2.index t (0 : Fin 2) * 128 + 1 * (y 0).val = (y 0).val; rw [(idx2 t).1]; omega
  | ⟨1, _⟩ => show win0_2.index t (1 : Fin 2) * 512 + 1 * (y 1).val = (y 1).val; rw [(idx2 t).2]; omega

/-- Window 3's block at the one point is the array itself: block index zero, block size the array's. -/
theorem blk3 (c : Dev nD) (t : Fin cfg0.N) : (iblk m c 3 t : Vec F S1x512 .f32) = V m c main_v0 := by
  funext y
  show V m c main_v0 (((cfg0.win 3).blk t).view.emb y) = V m c main_v0 y
  refine congrArg (V m c main_v0) ?_
  funext a; apply Fin.ext
  match a with
  | ⟨0, _⟩ => show win0_3.index t (0 : Fin 2) * 1 + 1 * (y 0).val = (y 0).val; rw [(idx3 t).1]; omega
  | ⟨1, _⟩ => show win0_3.index t (1 : Fin 2) * 512 + 1 * (y 1).val = (y 1).val; rw [(idx3 t).2]; omega

/-- Window 4's block at the one point is the array itself: block index zero, block size the array's. -/
theorem blk4 (c : Dev nD) (t : Fin cfg0.N) : (iblk m c 4 t : Vec F S512x128 .f32) = V m c main_arg4 := by
  funext y
  show V m c main_arg4 (((cfg0.win 4).blk t).view.emb y) = V m c main_arg4 y
  refine congrArg (V m c main_arg4) ?_
  funext a; apply Fin.ext
  match a with
  | ⟨0, _⟩ => show win0_4.index t (0 : Fin 2) * 512 + 1 * (y 0).val = (y 0).val; rw [(idx4 t).1]; omega
  | ⟨1, _⟩ => show win0_4.index t (1 : Fin 2) * 128 + 1 * (y 1).val = (y 1).val; rw [(idx4 t).2]; omega

/-- Window 5's block at the one point is the array itself: block index zero, block size the array's. -/
theorem blk5 (c : Dev nD) (t : Fin cfg0.N) : (iblk m c 5 t : Vec F S1x128 .f32) = V m c main_v1 := by
  funext y
  show V m c main_v1 (((cfg0.win 5).blk t).view.emb y) = V m c main_v1 y
  refine congrArg (V m c main_v1) ?_
  funext a; apply Fin.ext
  match a with
  | ⟨0, _⟩ => show win0_5.index t (0 : Fin 2) * 1 + 1 * (y 0).val = (y 0).val; rw [(idx5 t).1]; omega
  | ⟨1, _⟩ => show win0_5.index t (1 : Fin 2) * 128 + 1 * (y 1).val = (y 1).val; rw [(idx5 t).2]; omega

/-- Window 6's block at the one point is the array itself: block index zero, block size the array's. -/
theorem blk6 (c : Dev nD) (t : Fin cfg0.N) : (iblk m c 6 t : Vec F S128x256 .f32) = V m c main_arg6 := by
  funext y
  show V m c main_arg6 (((cfg0.win 6).blk t).view.emb y) = V m c main_arg6 y
  refine congrArg (V m c main_arg6) ?_
  funext a; apply Fin.ext
  match a with
  | ⟨0, _⟩ => show win0_6.index t (0 : Fin 2) * 128 + 1 * (y 0).val = (y 0).val; rw [(idx6 t).1]; omega
  | ⟨1, _⟩ => show win0_6.index t (1 : Fin 2) * 256 + 1 * (y 1).val = (y 1).val; rw [(idx6 t).2]; omega

/-- Window 7's block at the one point is the array itself: block index zero, block size the array's. -/
theorem blk7 (c : Dev nD) (t : Fin cfg0.N) : (iblk m c 7 t : Vec F S1x256 .f32) = V m c main_v2 := by
  funext y
  show V m c main_v2 (((cfg0.win 7).blk t).view.emb y) = V m c main_v2 y
  refine congrArg (V m c main_v2) ?_
  funext a; apply Fin.ext
  match a with
  | ⟨0, _⟩ => show win0_7.index t (0 : Fin 2) * 1 + 1 * (y 0).val = (y 0).val; rw [(idx7 t).1]; omega
  | ⟨1, _⟩ => show win0_7.index t (1 : Fin 2) * 256 + 1 * (y 1).val = (y 1).val; rw [(idx7 t).2]; omega

/-- Window 8's block at the one point is the array itself: block index zero, block size the array's. -/
theorem blk8 (c : Dev nD) (t : Fin cfg0.N) : (iblk m c 8 t : Vec F S256x1 .f32) = V m c main_arg8 := by
  funext y
  show V m c main_arg8 (((cfg0.win 8).blk t).view.emb y) = V m c main_arg8 y
  refine congrArg (V m c main_arg8) ?_
  funext a; apply Fin.ext
  match a with
  | ⟨0, _⟩ => show win0_8.index t (0 : Fin 2) * 256 + 1 * (y 0).val = (y 0).val; rw [(idx8 t).1]; omega
  | ⟨1, _⟩ => show win0_8.index t (1 : Fin 2) * 1 + 1 * (y 1).val = (y 1).val; rw [(idx8 t).2]; omega

/-- Window 9's block at the one point is the array itself: block index zero, block size the array's. -/
theorem blk9 (c : Dev nD) (t : Fin cfg0.N) : (iblk m c 9 t : Vec F S1x1 .f32) = V m c main_v3 := by
  funext y
  show V m c main_v3 (((cfg0.win 9).blk t).view.emb y) = V m c main_v3 y
  refine congrArg (V m c main_v3) ?_
  funext a; apply Fin.ext
  match a with
  | ⟨0, _⟩ => show win0_9.index t (0 : Fin 2) * 1 + 1 * (y 0).val = (y 0).val; rw [(idx9 t).1]; omega
  | ⟨1, _⟩ => show win0_9.index t (1 : Fin 2) * 1 + 1 * (y 1).val = (y 1).val; rw [(idx9 t).2]; omega

/-! ## The two results as functions of the whole arrays -/

/-- The first result array: the body's arithmetic applied to the six arrays it reads for it, whole. -/
def res0 (A : Vec F S1024x1024 .f32) (X : Vec F S1024x128 .f32) (W1 : Vec F S128x512 .f32) (b1 : Vec F S1x512 .f32)
    (W2 : Vec F S512x128 .f32) (b2 : Vec F S1x128 .f32) : Vec F S1024x128 .f32 :=
  k0_pay1 (k0_pay3 A) (k0_pay4 A) (k0_pay5 A X W1 b1 W2) (k0_pay6 A X W1 b1 W2) (k0_pay7 A X W1 b1 W2) (constant S1024x128 .f32 0x00000000#32) b2

/-- The second result array: the body's arithmetic applied to all ten arrays, whole. -/
def res1 (A : Vec F S1024x1024 .f32) (X : Vec F S1024x128 .f32) (W1 : Vec F S128x512 .f32) (b1 : Vec F S1x512 .f32)
    (W2 : Vec F S512x128 .f32) (b2 : Vec F S1x128 .f32) (F1 : Vec F S128x256 .f32) (f1 : Vec F S1x256 .f32)
    (F2 : Vec F S256x1 .f32) (f2 : Vec F S1x1 .f32) : Vec F S1024x1 .f32 :=
  k0_pay2 (k0_pay3 A) (k0_pay4 A) (k0_pay5 A X W1 b1 W2) (k0_pay6 A X W1 b1 W2) (k0_pay7 A X W1 b1 W2) (constant S1024x128 .f32 0x00000000#32) b2 F1 f1 F2 f2

/-- What the body leaves in the first output's buffer: one store through the whole-buffer rectangle of a payload
    whose every load is through a whole-buffer rectangle — the payload of the loaded contents themselves. -/
theorem out10_whole (x0 : Vec F S1024x1024 .f32) (x1 : Vec F S1024x128 .f32) (x2 : Vec F S128x512 .f32) (x3 : Vec F S1x512 .f32)
    (x4 : Vec F S512x128 .f32) (x5 : Vec F S1x128 .f32) (x6 : Vec F S128x256 .f32) (x7 : Vec F S1x256 .f32)
    (x8 : Vec F S256x1 .f32) (x9 : Vec F S1x1 .f32) :
    out0_10 x0 x1 x2 x3 x4 x5 x6 x7 x8 x9 = res0 x0 x1 x2 x3 x4 x5 := by
  unfold out0_10 res0
  rw [View.canon_unit_zero hz]
  simp only [View.ld_unit_zero (S := S1024x1024) hz, View.ld_unit_zero (S := S1024x128) hz, View.ld_unit_zero (S := S128x512) hz,
    View.ld_unit_zero (S := S1x512) hz, View.ld_unit_zero (S := S512x128) hz, View.ld_unit_zero (S := S1x128) hz]

/-- The same for the second output's buffer. -/
theorem out11_whole (x0 : Vec F S1024x1024 .f32) (x1 : Vec F S1024x128 .f32) (x2 : Vec F S128x512 .f32) (x3 : Vec F S1x512 .f32)
    (x4 : Vec F S512x128 .f32) (x5 : Vec F S1x128 .f32) (x6 : Vec F S128x256 .f32) (x7 : Vec F S1x256 .f32)
    (x8 : Vec F S256x1 .f32) (x9 : Vec F S1x1 .f32) :
    out0_11 x0 x1 x2 x3 x4 x5 x6 x7 x8 x9 = res1 x0 x1 x2 x3 x4 x5 x6 x7 x8 x9 := by
  unfold out0_11 res1
  rw [View.canon_unit_zero hz]
  simp only [View.ld_unit_zero (S := S1024x1024) hz, View.ld_unit_zero (S := S1024x128) hz, View.ld_unit_zero (S := S128x512) hz,
    View.ld_unit_zero (S := S1x512) hz, View.ld_unit_zero (S := S512x128) hz, View.ld_unit_zero (S := S1x128) hz,
    View.ld_unit_zero (S := S128x256) hz, View.ld_unit_zero (S := S1x256) hz, View.ld_unit_zero (S := S256x1) hz,
    View.ld_unit_zero (S := S1x1) hz]

/-! ## What the one point writes back is each result read through the output window's block -/

/-- The first output window's block at the one point is the whole array: cutting a buffer's contents to the part
    written back and reading an array through the block are both the identity on indices. -/
theorem read10 (t : Fin cfg0.N) (G : Vec F S1024x128 .f32) :
    (cfg0.win 10).cut (grid0.coords t) G = ((cfg0.win 10).blk t).view.read (Elt F) G := by
  funext y
  show G ((cfg0.win 10).xinj (grid0.coords t) y) = G (((cfg0.win 10).blk t).view.emb y)
  refine congrArg G ?_
  funext a; apply Fin.ext
  match a with
  | ⟨0, _⟩ => show (y 0).val = win0_10.index t (0 : Fin 2) * 1024 + 1 * (y 0).val; rw [(idx10 t).1]; omega
  | ⟨1, _⟩ => show (y 1).val = win0_10.index t (1 : Fin 2) * 128 + 1 * (y 1).val; rw [(idx10 t).2]; omega

/-- The same for the second output window. -/
theorem read11 (t : Fin cfg0.N) (G : Vec F S1024x1 .f32) :
    (cfg0.win 11).cut (grid0.coords t) G = ((cfg0.win 11).blk t).view.read (Elt F) G := by
  funext y
  show G ((cfg0.win 11).xinj (grid0.coords t) y) = G (((cfg0.win 11).blk t).view.emb y)
  refine congrArg G ?_
  funext a; apply Fin.ext
  match a with
  | ⟨0, _⟩ => show (y 0).val = win0_11.index t (0 : Fin 2) * 1024 + 1 * (y 0).val; rw [(idx11 t).1]; omega
  | ⟨1, _⟩ => show (y 1).val = win0_11.index t (1 : Fin 2) * 1 + 1 * (y 1).val; rw [(idx11 t).2]; omega

/-- What the point writes back to the first output array: `res0` of the six arrays as the region finds them. -/
theorem flushed10_eq (c : Dev nD) (t : Fin cfg0.N) :
    (dats m 0 c).flushed 10 t = ((cfg0.win 10).blk t).view.read (Elt F)
      (res0 (V m c main_arg0) (V m c main_arg1) (V m c main_arg2) (V m c main_v0) (V m c main_arg4) (V m c main_v1)) := by
  rw [Value.flushed10]
  have e := out10_whole (iblk m c 0 t) (iblk m c 1 t) (iblk m c 2 t) (iblk m c 3 t) (iblk m c 4 t) (iblk m c 5 t)
    (iblk m c 6 t) (iblk m c 7 t) (iblk m c 8 t) (iblk m c 9 t)
  rw [e, blk0 m c t, blk1 m c t, blk2 m c t, blk3 m c t, blk4 m c t, blk5 m c t]
  exact read10 t _

/-- What the point writes back to the second output array: `res1` of the ten arrays as the region finds them. -/
theorem flushed11_eq (c : Dev nD) (t : Fin cfg0.N) :
    (dats m 0 c).flushed 11 t = ((cfg0.win 11).blk t).view.read (Elt F)
      (res1 (V m c main_arg0) (V m c main_arg1) (V m c main_arg2) (V m c main_v0) (V m c main_arg4) (V m c main_v1)
        (V m c main_arg6) (V m c main_v2) (V m c main_arg8) (V m c main_v3)) := by
  rw [Value.flushed11]
  have e := out11_whole (iblk m c 0 t) (iblk m c 1 t) (iblk m c 2 t) (iblk m c 3 t) (iblk m c 4 t) (iblk m c 5 t)
    (iblk m c 6 t) (iblk m c 7 t) (iblk m c 8 t) (iblk m c 9 t)
  rw [e, blk0 m c t, blk1 m c t, blk2 m c t, blk3 m c t, blk4 m c t, blk5 m c t, blk6 m c t, blk7 m c t, blk8 m c t, blk9 m c t]
  exact read11 t _

/-! ## The one point's block covers each output array -/

theorem cover10 (i : S1024x128.Idx) :
    ∃ t : Fin cfg0.N, (cfg0.win 10).flush t = true ∧ i ∈ ((cfg0.win 10).blk t).view.set := by
  refine ⟨t0_0, flush0_10 t0_0, ?_⟩
  show i ∈ ((View.whole main_v4_0).slice (win0_10.rect t0_0)).set
  rw [View.set_slice_whole, Rect.mem_set_unit]
  intro a
  have h0 : (i 0 : Nat) < 1024 := (i 0).isLt
  have h1 : (i 1 : Nat) < 128 := (i 1).isLt
  match a with
  | ⟨0, _⟩ =>
    show win0_10.index t0_0 (0 : Fin 2) * 1024 ≤ (i 0 : Nat) ∧ (i 0 : Nat) < win0_10.index t0_0 (0 : Fin 2) * 1024 + 1024
    rw [(idx10 t0_0).1]; omega
  | ⟨1, _⟩ =>
    show win0_10.index t0_0 (1 : Fin 2) * 128 ≤ (i 1 : Nat) ∧ (i 1 : Nat) < win0_10.index t0_0 (1 : Fin 2) * 128 + 128
    rw [(idx10 t0_0).2]; omega

theorem cover11 (i : S1024x1.Idx) :
    ∃ t : Fin cfg0.N, (cfg0.win 11).flush t = true ∧ i ∈ ((cfg0.win 11).blk t).view.set := by
  refine ⟨t0_0, flush0_11 t0_0, ?_⟩
  show i ∈ ((View.whole main_v4_1).slice (win0_11.rect t0_0)).set
  rw [View.set_slice_whole, Rect.mem_set_unit]
  intro a
  have h0 : (i 0 : Nat) < 1024 := (i 0).isLt
  have h1 : (i 1 : Nat) < 1 := (i 1).isLt
  match a with
  | ⟨0, _⟩ =>
    show win0_11.index t0_0 (0 : Fin 2) * 1024 ≤ (i 0 : Nat) ∧ (i 0 : Nat) < win0_11.index t0_0 (0 : Fin 2) * 1024 + 1024
    rw [(idx11 t0_0).1]; omega
  | ⟨1, _⟩ =>
    show win0_11.index t0_0 (1 : Fin 2) * 1 ≤ (i 1 : Nat) ∧ (i 1 : Nat) < win0_11.index t0_0 (1 : Fin 2) * 1 + 1
    rw [(idx11 t0_0).2]; omega

/-! ## The arrays the host reshapes wrote before the region -/

/-- The four staged rows are the four vector arguments recast to one row each. -/
theorem V_main_v0 (c : Dev nD) : (V m c main_v0 : S1x512.Idx → Elt F .f32)
    = shapeCast S1x512 (m ((c : Thread nD τ).loc main_arg3)) shapeCasts_S512_S1x512 := by
  dsimp only [Gen.V, Gen.hostOps0]; after_results; rfl

theorem V_main_v1 (c : Dev nD) : (V m c main_v1 : S1x128.Idx → Elt F .f32)
    = shapeCast S1x128 (m ((c : Thread nD τ).loc main_arg5)) shapeCasts_S128_S1x128 := by
  dsimp only [Gen.V, Gen.hostOps0]; after_results; rfl

theorem V_main_v2 (c : Dev nD) : (V m c main_v2 : S1x256.Idx → Elt F .f32)
    = shapeCast S1x256 (m ((c : Thread nD τ).loc main_arg7)) shapeCasts_S256_S1x256 := by
  dsimp only [Gen.V, Gen.hostOps0]; after_results; rfl

theorem V_main_v3 (c : Dev nD) : (V m c main_v3 : S1x1.Idx → Elt F .f32)
    = shapeCast S1x1 (m ((c : Thread nD τ).loc main_arg9)) shapeCasts_S1_S1x1 := by
  dsimp only [Gen.V, Gen.hostOps0]; after_results; rfl

/-! ## The output arrays after the run, and the run re-posted -/

/-- The first output array after the run is `res0` of the launched arguments (the two staged rows recast). -/
theorem final10 (c : Dev nD) : (dats m 0 c).arrAt 10 cfg0.N
    = res0 (m ((c : Thread nD τ).loc main_arg0)) (m ((c : Thread nD τ).loc main_arg1)) (m ((c : Thread nD τ).loc main_arg2))
        (shapeCast S1x512 (m ((c : Thread nD τ).loc main_arg3)) shapeCasts_S512_S1x512)
        (m ((c : Thread nD τ).loc main_arg4))
        (shapeCast S1x128 (m ((c : Thread nD τ).loc main_arg5)) shapeCasts_S128_S1x128) := by
  rw [← V_main_arg0 m c, ← V_main_arg1 m c, ← V_main_arg2 m c, ← V_main_v0 m c, ← V_main_arg4 m c, ← V_main_v1 m c]
  exact (dats m 0 c).arrAt_eq_of_cover 10 _ (fun t _ => flushed10_eq m c t) cover10

/-- The second output array after the run is `res1` of the launched arguments (the four staged rows recast). -/
theorem final11 (c : Dev nD) : (dats m 0 c).arrAt 11 cfg0.N
    = res1 (m ((c : Thread nD τ).loc main_arg0)) (m ((c : Thread nD τ).loc main_arg1)) (m ((c : Thread nD τ).loc main_arg2))
        (shapeCast S1x512 (m ((c : Thread nD τ).loc main_arg3)) shapeCasts_S512_S1x512)
        (m ((c : Thread nD τ).loc main_arg4))
        (shapeCast S1x128 (m ((c : Thread nD τ).loc main_arg5)) shapeCasts_S128_S1x128)
        (m ((c : Thread nD τ).loc main_arg6))
        (shapeCast S1x256 (m ((c : Thread nD τ).loc main_arg7)) shapeCasts_S256_S1x256)
        (m ((c : Thread nD τ).loc main_arg8))
        (shapeCast S1x1 (m ((c : Thread nD τ).loc main_arg9)) shapeCasts_S1_S1x1) := by
  rw [← V_main_arg0 m c, ← V_main_arg1 m c, ← V_main_arg2 m c, ← V_main_v0 m c, ← V_main_arg4 m c, ← V_main_v1 m c,
    ← V_main_arg6 m c, ← V_main_v2 m c, ← V_main_arg8 m c, ← V_main_v3 m c]
  exact (dats m 0 c).arrAt_eq_of_cover 11 _ (fun t _ => flushed11_eq m c t) cover11

/-- The kernel's run with each output array as one function of the whole argument arrays, the arguments unchanged. -/
theorem run : θ_run defs (onTc (τ := τ) (main (F := F))) ⟨m, fun _ => 0, ρ⟩ fun r => ∀ c : Dev nD,
      r.2.mem ((c : Thread nD τ).loc main_v4_0)
        = res0 (m ((c : Thread nD τ).loc main_arg0)) (m ((c : Thread nD τ).loc main_arg1)) (m ((c : Thread nD τ).loc main_arg2))
            (shapeCast S1x512 (m ((c : Thread nD τ).loc main_arg3)) shapeCasts_S512_S1x512)
            (m ((c : Thread nD τ).loc main_arg4))
            (shapeCast S1x128 (m ((c : Thread nD τ).loc main_arg5)) shapeCasts_S128_S1x128)
      ∧ r.2.mem ((c : Thread nD τ).loc main_v4_1)
        = res1 (m ((c : Thread nD τ).loc main_arg0)) (m ((c : Thread nD τ).loc main_arg1)) (m ((c : Thread nD τ).loc main_arg2))
            (shapeCast S1x512 (m ((c : Thread nD τ).loc main_arg3)) shapeCasts_S512_S1x512)
            (m ((c : Thread nD τ).loc main_arg4))
            (shapeCast S1x128 (m ((c : Thread nD τ).loc main_arg5)) shapeCasts_S128_S1x128)
            (m ((c : Thread nD τ).loc main_arg6))
            (shapeCast S1x256 (m ((c : Thread nD τ).loc main_arg7)) shapeCasts_S256_S1x256)
            (m ((c : Thread nD τ).loc main_arg8))
            (shapeCast S1x1 (m ((c : Thread nD τ).loc main_arg9)) shapeCasts_S1_S1x1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (Value.run_blocks m ρ)

end Cert.KernelIdeal.WholeRun
end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.LibContractFirst.lean ====
/-
  A product that contracts the FIRST axis of both operands, read at an index.

  For an `n × a` matrix `l` and an `n × c` matrix `r`, contracting the first axis of each gives the `a × c` matrix
  whose entry `(p, q)` is the sum over `k` of `l (k, p) * r (k, q)`: the transpose of `l` times `r`, with no
  transpose ever formed.  The contraction's own index type is re-indexed by the shared coordinate `k`.
-/
import Idealize.ShloMosaic.Lib.ValueIdx
import Idealize.ShloMosaic.PureOps.Ideal.Laws

namespace Cert.LibContractFirst

open Idealize.ShloMosaic Idealize.ShloMosaic.ValueIdx

/-- The contraction's sum re-indexed by the shared first coordinate, when the operand indices at an output index
    `(p, q)` and a contraction position `k` are `(k, p)` and `(k, q)`. -/
theorem sum_contr_first {n a c : ℕ} (D : DotDims ⟨2, ![n, a]⟩ ⟨2, ![n, c]⟩ ⟨2, ![a, c]⟩) (hrk : D.contr.rank = 1)
    (hsz : D.contr.size ⟨0, by omega⟩ = n)
    (hl0 : ∀ j k, (D.lhsIdx j k (0 : Fin 2)).val = (k ⟨0, by omega⟩).val)
    (hl1 : ∀ j k, (D.lhsIdx j k (1 : Fin 2)).val = (j (0 : Fin 2)).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![n, a]⟩ : Shape).Idx → EReal) (r : (⟨2, ![n, c]⟩ : Shape).Idx → EReal) (p : Fin a) (q : Fin c) :
    ∑ k : D.contr.Idx, l (D.lhsIdx (ix2 p q) k) * r (D.rhsIdx (ix2 p q) k) = ∑ k : Fin n, l (ix2 k p) * r (ix2 k q) := by
  rw [← Equiv.sum_comp (contrEquiv1 D n hrk hsz).symm]
  refine Finset.sum_congr rfl fun k _ => ?_
  have e1 : D.lhsIdx (ix2 p q) ((contrEquiv1 D n hrk hsz).symm k) = ix2 k p := by
    funext ax
    apply Fin.ext
    match ax with
    | ⟨0, _⟩ => exact (hl0 _ _).trans (contrEquiv1_symm_val D n hrk hsz k)
    | ⟨1, _⟩ => exact hl1 _ _
  have e2 : D.rhsIdx (ix2 p q) ((contrEquiv1 D n hrk hsz).symm k) = ix2 k q := by
    funext ax
    apply Fin.ext
    match ax with
    | ⟨0, _⟩ => exact (hr0 _ _).trans (contrEquiv1_symm_val D n hrk hsz k)
    | ⟨1, _⟩ => exact hr1 _ _
  rw [e1, e2]

end Cert.LibContractFirst
-- ==== Proof.KernelDots.lean ====
/-
  The kernel's seven matrix products into a zero accumulator, each read at an output entry as a plain sum over the
  shared coordinate: the four ordinary products (rows of the left against columns of the right) and the three that
  contract the first axis of both operands (columns of the adjacency against columns of the right operand).
-/
import proofs.«104248_g70214125355148_fold_wed_m_1087_4_alg».proof.Proof.Gen.KernelIdeal
import proofs.«104248_g70214125355148_fold_wed_m_1087_4_alg».proof.Proof.LibRowOps
import proofs.«104248_g70214125355148_fold_wed_m_1087_4_alg».proof.Proof.LibContractFirst
import Idealize.ShloMosaic.PureOps.Ideal.Laws

noncomputable section

namespace Cert.KernelIdeal.Dots

open Cert.KernelIdeal Cert.KernelIdeal.Gen Idealize.ShloMosaic Idealize.ShloMosaic.ValueIdx

/-- A product contracting the first axis of both operands: entry `(p, q)` is the sum over `k` of `l (k, p) * r (k, q)`. -/
theorem degT_apply {φ₁ φ₂ : FTy} (l : FVec Ideal S1024x1024 φ₁) (r : FVec Ideal S1024x1 φ₂) (p : Fin 1024) (q : Fin 1) :
    matmul dot_S1024x1024_S1024x1_S1024x1_0_0_1_1_n_n none l r (constant S1024x1 .f32 0x00000000#32) (ix2 p q) = ∑ k : Fin 1024, l (ix2 k p) * r (ix2 k q) :=
  (Ideal.matmul_constant_zero_apply dot_S1024x1024_S1024x1_S1024x1_0_0_1_1_n_n none l r (ix2 p q)).trans
    (Cert.LibContractFirst.sum_contr_first dot_S1024x1024_S1024x1_S1024x1_0_0_1_1_n_n rfl rfl
      (fun j k => dot_S1024x1024_S1024x1_S1024x1_0_0_1_1_n_n.lhsIdx_val_of_single rfl j k)
      (fun j k => by unfold DotDims.lhsIdx; rw [dif_neg (show ¬(1 : Fin S1024x1024.rank) ∈ dot_S1024x1024_S1024x1_S1024x1_0_0_1_1_n_n.lhsBatch by decide), dif_pos (show (1 : Fin S1024x1024.rank) ∈ dot_S1024x1024_S1024x1_S1024x1_0_0_1_1_n_n.lhsNonContracting by decide)]; rfl)
      (fun j k => dot_S1024x1024_S1024x1_S1024x1_0_0_1_1_n_n.rhsIdx_val_of_single rfl j k)
      (fun j k => by unfold DotDims.rhsIdx; rw [dif_neg (show ¬(1 : Fin S1024x1.rank) ∈ dot_S1024x1024_S1024x1_S1024x1_0_0_1_1_n_n.rhsBatch by decide), dif_pos (show (1 : Fin S1024x1.rank) ∈ dot_S1024x1024_S1024x1_S1024x1_0_0_1_1_n_n.rhsNonContracting by decide)]; rfl)
      l r p q)

/-- An ordinary product: entry `(p, q)` is the sum over `k` of `l (p, k) * r (k, q)`. -/
theorem xw1_apply {φ₁ φ₂ : FTy} (l : FVec Ideal S1024x128 φ₁) (r : FVec Ideal S128x512 φ₂) (p : Fin 1024) (q : Fin 512) :
    matmul dot_S1024x128_S128x512_S1024x512_1_0_0_1_n_n none l r (constant S1024x512 .f32 0x00000000#32) (ix2 p q) = ∑ k : Fin 128, l (ix2 p k) * r (ix2 k q) :=
  (Ideal.matmul_constant_zero_apply dot_S1024x128_S128x512_S1024x512_1_0_0_1_n_n none l r (ix2 p q)).trans
    (Cert.LibRowOps.sum_contr dot_S1024x128_S128x512_S1024x512_1_0_0_1_n_n rfl rfl
      (fun j k => by unfold DotDims.lhsIdx; rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]; rfl)
      (fun j k => dot_S1024x128_S128x512_S1024x512_1_0_0_1_n_n.lhsIdx_val_of_single rfl j k)
      (fun j k => dot_S1024x128_S128x512_S1024x512_1_0_0_1_n_n.rhsIdx_val_of_single rfl j k)
      (fun j k => by unfold DotDims.rhsIdx; rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]; rfl)
      l r p q)

/-- A product contracting the first axis of both operands: entry `(p, q)` is the sum over `k` of `l (k, p) * r (k, q)`. -/
theorem aggT512_apply {φ₁ φ₂ : FTy} (l : FVec Ideal S1024x1024 φ₁) (r : FVec Ideal S1024x512 φ₂) (p : Fin 1024) (q : Fin 512) :
    matmul dot_S1024x1024_S1024x512_S1024x512_0_0_1_1_n_n none l r (constant S1024x512 .f32 0x00000000#32) (ix2 p q) = ∑ k : Fin 1024, l (ix2 k p) * r (ix2 k q) :=
  (Ideal.matmul_constant_zero_apply dot_S1024x1024_S1024x512_S1024x512_0_0_1_1_n_n none l r (ix2 p q)).trans
    (Cert.LibContractFirst.sum_contr_first dot_S1024x1024_S1024x512_S1024x512_0_0_1_1_n_n rfl rfl
      (fun j k => dot_S1024x1024_S1024x512_S1024x512_0_0_1_1_n_n.lhsIdx_val_of_single rfl j k)
      (fun j k => by unfold DotDims.lhsIdx; rw [dif_neg (show ¬(1 : Fin S1024x1024.rank) ∈ dot_S1024x1024_S1024x512_S1024x512_0_0_1_1_n_n.lhsBatch by decide), dif_pos (show (1 : Fin S1024x1024.rank) ∈ dot_S1024x1024_S1024x512_S1024x512_0_0_1_1_n_n.lhsNonContracting by decide)]; rfl)
      (fun j k => dot_S1024x1024_S1024x512_S1024x512_0_0_1_1_n_n.rhsIdx_val_of_single rfl j k)
      (fun j k => by unfold DotDims.rhsIdx; rw [dif_neg (show ¬(1 : Fin S1024x512.rank) ∈ dot_S1024x1024_S1024x512_S1024x512_0_0_1_1_n_n.rhsBatch by decide), dif_pos (show (1 : Fin S1024x512.rank) ∈ dot_S1024x1024_S1024x512_S1024x512_0_0_1_1_n_n.rhsNonContracting by decide)]; rfl)
      l r p q)

/-- An ordinary product: entry `(p, q)` is the sum over `k` of `l (p, k) * r (k, q)`. -/
theorem xw2_apply {φ₁ φ₂ : FTy} (l : FVec Ideal S1024x512 φ₁) (r : FVec Ideal S512x128 φ₂) (p : Fin 1024) (q : Fin 128) :
    matmul dot_S1024x512_S512x128_S1024x128_1_0_0_1_n_n none l r (constant S1024x128 .f32 0x00000000#32) (ix2 p q) = ∑ k : Fin 512, l (ix2 p k) * r (ix2 k q) :=
  (Ideal.matmul_constant_zero_apply dot_S1024x512_S512x128_S1024x128_1_0_0_1_n_n none l r (ix2 p q)).trans
    (Cert.LibRowOps.sum_contr dot_S1024x512_S512x128_S1024x128_1_0_0_1_n_n rfl rfl
      (fun j k => by unfold DotDims.lhsIdx; rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]; rfl)
      (fun j k => dot_S1024x512_S512x128_S1024x128_1_0_0_1_n_n.lhsIdx_val_of_single rfl j k)
      (fun j k => dot_S1024x512_S512x128_S1024x128_1_0_0_1_n_n.rhsIdx_val_of_single rfl j k)
      (fun j k => by unfold DotDims.rhsIdx; rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]; rfl)
      l r p q)

/-- A product contracting the first axis of both operands: entry `(p, q)` is the sum over `k` of `l (k, p) * r (k, q)`. -/
theorem aggT128_apply {φ₁ φ₂ : FTy} (l : FVec Ideal S1024x1024 φ₁) (r : FVec Ideal S1024x128 φ₂) (p : Fin 1024) (q : Fin 128) :
    matmul dot_S1024x1024_S1024x128_S1024x128_0_0_1_1_n_n none l r (constant S1024x128 .f32 0x00000000#32) (ix2 p q) = ∑ k : Fin 1024, l (ix2 k p) * r (ix2 k q) :=
  (Ideal.matmul_constant_zero_apply dot_S1024x1024_S1024x128_S1024x128_0_0_1_1_n_n none l r (ix2 p q)).trans
    (Cert.LibContractFirst.sum_contr_first dot_S1024x1024_S1024x128_S1024x128_0_0_1_1_n_n rfl rfl
      (fun j k => dot_S1024x1024_S1024x128_S1024x128_0_0_1_1_n_n.lhsIdx_val_of_single rfl j k)
      (fun j k => by unfold DotDims.lhsIdx; rw [dif_neg (show ¬(1 : Fin S1024x1024.rank) ∈ dot_S1024x1024_S1024x128_S1024x128_0_0_1_1_n_n.lhsBatch by decide), dif_pos (show (1 : Fin S1024x1024.rank) ∈ dot_S1024x1024_S1024x128_S1024x128_0_0_1_1_n_n.lhsNonContracting by decide)]; rfl)
      (fun j k => dot_S1024x1024_S1024x128_S1024x128_0_0_1_1_n_n.rhsIdx_val_of_single rfl j k)
      (fun j k => by unfold DotDims.rhsIdx; rw [dif_neg (show ¬(1 : Fin S1024x128.rank) ∈ dot_S1024x1024_S1024x128_S1024x128_0_0_1_1_n_n.rhsBatch by decide), dif_pos (show (1 : Fin S1024x128.rank) ∈ dot_S1024x1024_S1024x128_S1024x128_0_0_1_1_n_n.rhsNonContracting by decide)]; rfl)
      l r p q)

/-- An ordinary product: entry `(p, q)` is the sum over `k` of `l (p, k) * r (k, q)`. -/
theorem fc1_apply {φ₁ φ₂ : FTy} (l : FVec Ideal S1024x128 φ₁) (r : FVec Ideal S128x256 φ₂) (p : Fin 1024) (q : Fin 256) :
    matmul dot_S1024x128_S128x256_S1024x256_1_0_0_1_n_n none l r (constant S1024x256 .f32 0x00000000#32) (ix2 p q) = ∑ k : Fin 128, l (ix2 p k) * r (ix2 k q) :=
  (Ideal.matmul_constant_zero_apply dot_S1024x128_S128x256_S1024x256_1_0_0_1_n_n none l r (ix2 p q)).trans
    (Cert.LibRowOps.sum_contr dot_S1024x128_S128x256_S1024x256_1_0_0_1_n_n rfl rfl
      (fun j k => by unfold DotDims.lhsIdx; rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]; rfl)
      (fun j k => dot_S1024x128_S128x256_S1024x256_1_0_0_1_n_n.lhsIdx_val_of_single rfl j k)
      (fun j k => dot_S1024x128_S128x256_S1024x256_1_0_0_1_n_n.rhsIdx_val_of_single rfl j k)
      (fun j k => by unfold DotDims.rhsIdx; rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]; rfl)
      l r p q)

/-- An ordinary product: entry `(p, q)` is the sum over `k` of `l (p, k) * r (k, q)`. -/
theorem fc2_apply {φ₁ φ₂ : FTy} (l : FVec Ideal S1024x256 φ₁) (r : FVec Ideal S256x1 φ₂) (p : Fin 1024) (q : Fin 1) :
    matmul dot_S1024x256_S256x1_S1024x1_1_0_0_1_n_n none l r (constant S1024x1 .f32 0x00000000#32) (ix2 p q) = ∑ k : Fin 256, l (ix2 p k) * r (ix2 k q) :=
  (Ideal.matmul_constant_zero_apply dot_S1024x256_S256x1_S1024x1_1_0_0_1_n_n none l r (ix2 p q)).trans
    (Cert.LibRowOps.sum_contr dot_S1024x256_S256x1_S1024x1_1_0_0_1_n_n rfl rfl
      (fun j k => by unfold DotDims.lhsIdx; rw [dif_neg (show ¬(0 : Fin S1024x256.rank) ∈ dot_S1024x256_S256x1_S1024x1_1_0_0_1_n_n.lhsBatch by decide), dif_pos (show (0 : Fin S1024x256.rank) ∈ dot_S1024x256_S256x1_S1024x1_1_0_0_1_n_n.lhsNonContracting by decide)]; rfl)
      (fun j k => dot_S1024x256_S256x1_S1024x1_1_0_0_1_n_n.lhsIdx_val_of_single rfl j k)
      (fun j k => dot_S1024x256_S256x1_S1024x1_1_0_0_1_n_n.rhsIdx_val_of_single rfl j k)
      (fun j k => by unfold DotDims.rhsIdx; rw [dif_neg (show ¬(1 : Fin S256x1.rank) ∈ dot_S1024x256_S256x1_S1024x1_1_0_0_1_n_n.rhsBatch by decide), dif_pos (show (1 : Fin S256x1.rank) ∈ dot_S1024x256_S256x1_S1024x1_1_0_0_1_n_n.rhsNonContracting by decide)]; rfl)
      l r p q)

end Cert.KernelIdeal.Dots

end
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Algebra.lean ====
/-
  The arithmetic that joins the two programs, over the extended reals, with no program in sight.

  Both programs normalise a graph aggregation by the inverse square roots of the node degrees.  With an adjacency
  matrix whose entries are zeros and ones, every degree (a column sum plus the two self loops) is a real number that
  is at least two, so its inverse square root is an ordinary positive real: the guarded form "one over the square
  root where the degree is positive, zero elsewhere" and the bare inverse square root agree.  One program adds the
  two self loops to the matrix before multiplying; the other multiplies by the bare matrix, once more by it against a
  remainder that is the difference of a real number with itself, hence zero, and adds twice the vector.  The two
  sums agree because products distribute over sums of non-negative factors.
-/
import Idealize.ShloMosaic.PureOps.Ideal
import Idealize.ShloMosaic.PureOps.Ideal.Laws

noncomputable section

namespace Cert.GcnAlgebra

open Idealize.ShloMosaic

/-! ## The literal words the programs spell -/

theorem ofBits_two : Ideal.ofBits .f32 0x40000000#32 = (2 : EReal) := by
  simp [Ideal.ofBits, Ideal.ieee, -EReal.coe_mul]; norm_num; norm_cast

theorem ofBits_one : Ideal.ofBits .f32 0x3F800000#32 = (1 : EReal) := by
  simp [Ideal.ofBits, Ideal.ieee, -EReal.coe_mul]; norm_num

theorem ofBits_one_bf16 : Ideal.ofBits .bf16 0x3F80#16 = (1 : EReal) := by
  simp [Ideal.ofBits, Ideal.ieee, -EReal.coe_mul]; norm_num

/-! ## Real numbers among the extended reals -/

/-- The extended real is an ordinary real number. -/
def IsReal (x : EReal) : Prop := ∃ r : ℝ, x = (r : EReal)

theorem IsReal.zero : IsReal 0 := ⟨0, rfl⟩
theorem IsReal.one : IsReal 1 := ⟨1, rfl⟩
theorem IsReal.two : IsReal 2 := ⟨2, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.max {x y : EReal} (hx : IsReal x) (hy : IsReal y) : IsReal (max x y) := by
  obtain ⟨r, rfl⟩ := hx; obtain ⟨s, rfl⟩ := hy
  rcases le_total r s with h | h
  · exact ⟨s, max_eq_right (EReal.coe_le_coe_iff.2 h)⟩
  · exact ⟨r, max_eq_left (EReal.coe_le_coe_iff.2 h)⟩

theorem IsReal.sum {ι : Type} (s : Finset ι) (f : ι → EReal) (h : ∀ i ∈ s, IsReal (f i)) : IsReal (∑ i ∈ s, f i) :=
  Finset.sum_induction f IsReal (fun _ _ => IsReal.add) IsReal.zero h

/-- A real number minus itself is zero (among the extended reals an infinity minus itself is not). -/
theorem IsReal.sub_self {x : EReal} (h : IsReal x) : x - x = 0 := by
  obtain ⟨r, rfl⟩ := h; rw [← EReal.coe_sub, _root_.sub_self, EReal.coe_zero]

theorem isReal_of_zero_or_one {x : EReal} (h : x = 0 ∨ x = 1) : IsReal x := by
  rcases h with rfl | rfl
  · exact IsReal.zero
  · exact IsReal.one

theorem nonneg_of_zero_or_one {x : EReal} (h : x = 0 ∨ x = 1) : 0 ≤ x := by
  rcases h with rfl | rfl
  · exact le_refl _
  · exact zero_le_one

/-! ## Twice a number -/

theorem two_mul' (y : EReal) : (2 : EReal) * y = y + y := by
  have h : (2 : EReal) = 1 + 1 := by norm_num
  rw [h, EReal.right_distrib_of_nonneg zero_le_one zero_le_one, one_mul]

variable {N : Type} [Fintype N] [DecidableEq N]

/-- The sum against an indicator of one index picks that index's term. -/
theorem sum_indicator_mul (e y : N → EReal) (j : N) (he : ∀ k, e k = if k = j then 1 else 0) :
    ∑ k, e k * y k = y j := by
  rw [Finset.sum_eq_single j]
  · rw [he j, if_pos rfl, one_mul]
  · intro k _ hk; rw [he k, if_neg hk, zero_mul]
  · intro h; exact absurd (Finset.mem_univ j) h

theorem sum_indicator (e : N → EReal) (j : N) (he : ∀ k, e k = if k = j then 1 else 0) : ∑ k, e k = 1 := by
  rw [Finset.sum_eq_single j]
  · rw [he j, if_pos rfl]
  · intro k _ hk; rw [he k, if_neg hk]
  · intro h; exact absurd (Finset.mem_univ j) h

theorem indicator_nonneg (e : N → EReal) (j : N) (he : ∀ k, e k = if k = j then 1 else 0) (k : N) : 0 ≤ e k := by
  rw [he k]; split
  · exact zero_le_one
  · exact le_refl _

/-! ## The degrees -/

/-- A column sum of the matrix with both self loops added is the column sum of the bare matrix plus two. -/
theorem deg_loops (a e e' : N → EReal) (j : N) (he : ∀ k, e k = if k = j then 1 else 0)
    (he' : ∀ k, e' k = if k = j then 1 else 0) :
    (0 : EReal) + ∑ k, ((a k + e k) + e' k) = (∑ k, a k) + 2 := by
  rw [zero_add, Finset.sum_add_distrib, Finset.sum_add_distrib, sum_indicator e j he, sum_indicator e' j he', add_assoc]
  norm_num

/-- A column sum as the product with the vector of ones, plus two. -/
theorem deg_ones (a : N → EReal) (one two : EReal) (h1 : one = 1) (h2 : two = 2) :
    (∑ k, a k * one) + two = (∑ k, a k) + 2 := by
  subst h1 h2; simp only [mul_one]

/-- With entries that are zeros and ones a degree is a real number, and positive. -/
theorem deg_real (a : N → EReal) (ha : ∀ k, a k = 0 ∨ a k = 1) : ∃ r : ℝ, 0 < r ∧ (∑ k, a k) + 2 = (r : EReal) := by
  obtain ⟨s, hs⟩ := IsReal.sum Finset.univ a (fun k _ => isReal_of_zero_or_one (ha k))
  have h0 : (0 : EReal) ≤ ∑ k, a k := Finset.sum_nonneg fun k _ => nonneg_of_zero_or_one (ha k)
  rw [hs] at h0 ⊢
  have hs0 : 0 ≤ s := by exact_mod_cast h0
  refine ⟨s + 2, by linarith, ?_⟩
  rw [EReal.coe_add]; rfl

/-! ## The inverse square root of a positive real -/

theorem sqrt_coe (r : ℝ) : Ideal.sqrt (r : EReal) = if r < 0 then (⊥ : EReal) else (Real.sqrt r : EReal) := rfl

theorem rsqrt_coe (r : ℝ) :
    Ideal.rsqrt (r : EReal) = if r < 0 then (⊥ : EReal) else if r = 0 then (⊤ : EReal) else (((Real.sqrt r)⁻¹ : ℝ) : EReal) := rfl

/-- Where the degree is a positive real, "one over its square root if it is positive, else zero" is its inverse square root. -/
theorem guarded_rsqrt (d zero one : EReal) (r : ℝ) (hd : d = (r : EReal)) (hr : 0 < r) (h0 : zero = 0) (h1 : one = 1) (w : EReal) :
    Scalar.select (Ideal.cmp .ogt d zero) (Ideal.div one (Ideal.sqrt d)) w = Ideal.rsqrt d := by
  subst hd h0 h1
  have hc : Ideal.cmp .ogt (r : EReal) 0 = 1#1 := by
    unfold Ideal.cmp
    have : (0 : EReal) < (r : EReal) := by exact_mod_cast hr
    simp [this]
  have hsq : Real.sqrt r ≠ 0 := (Real.sqrt_pos.2 hr).ne'
  rw [hc]
  show (if (1#1 : BitVec 1) = 1#1 then _ else _) = _
  rw [if_pos rfl]
  rw [sqrt_coe, rsqrt_coe, if_neg (not_lt.2 hr.le), if_neg (not_lt.2 hr.le), if_neg hr.ne', Ideal.div_coe hsq, one_mul, one_div]

theorem rsqrt_real (d : EReal) (r : ℝ) (hd : d = (r : EReal)) (hr : 0 < r) : IsReal (Ideal.rsqrt d) := by
  subst hd
  refine ⟨(Real.sqrt r)⁻¹, ?_⟩
  rw [rsqrt_coe, if_neg (not_lt.2 hr.le), if_neg hr.ne']

/-! ## The aggregation -/

/-- The matrix with both self loops added, against a vector: the bare matrix against it, plus twice the entry. -/
theorem agg_loops (a e e' y : N → EReal) (j : N) (ha : ∀ k, 0 ≤ a k) (he : ∀ k, e k = if k = j then 1 else 0)
    (he' : ∀ k, e' k = if k = j then 1 else 0) :
    ∑ k, ((a k + e k) + e' k) * y k = (∑ k, a k * y k) + 2 * y j := by
  have h : ∀ k, ((a k + e k) + e' k) * y k = (a k * y k + e k * y k) + e' k * y k := fun k => by
    rw [EReal.right_distrib_of_nonneg (add_nonneg (ha k) (indicator_nonneg e j he k)) (indicator_nonneg e' j he' k),
      EReal.right_distrib_of_nonneg (ha k) (indicator_nonneg e j he k)]
  rw [Finset.sum_congr rfl fun k _ => h k, Finset.sum_add_distrib, Finset.sum_add_distrib,
    sum_indicator_mul e y j he, sum_indicator_mul e' y j he', add_assoc, two_mul']

/-- The bare matrix against a vector of reals split into itself and a remainder that is the difference of each entry
    with itself: the remainder's term vanishes. -/
theorem agg_split (a y : N → EReal) (yj two : EReal) (hy : ∀ k, IsReal (y k)) (h2 : two = 2) :
    ((∑ k, a k * y k) + ∑ k, a k * (y k - y k)) + two * yj = (∑ k, a k * y k) + 2 * yj := by
  subst h2
  have h : ∑ k, a k * (y k - y k) = 0 := Finset.sum_eq_zero fun k _ => by rw [(hy k).sub_self, mul_zero]
  rw [h, add_zero]

/-- One layer's closing step as the split form computes it: scale, add the bias, keep the non-negative part. -/
theorem layer_split (a y : N → EReal) (yj d bias two zero : EReal) (hy : ∀ k, IsReal (y k)) (h2 : two = 2) (h0 : zero = 0) :
    max (d * (((∑ k, a k * y k) + ∑ k, a k * (y k - y k)) + two * yj) + bias) zero
      = max (d * ((∑ k, a k * y k) + 2 * yj) + bias) 0 := by
  rw [agg_split a y yj two hy h2, h0]

end Cert.GcnAlgebra

end
-- ==== Proof.Spec.lean ====
/-
  What both programs compute, stated once, over plain matrices of extended reals indexed by coordinates.

  For an adjacency matrix `A` the degree of node `j` is the sum of column `j` plus two (each node carries two self
  loops) and `dis j` is its inverse square root.  One graph layer multiplies the features by a weight matrix,
  scales row `k` by `dis k`, aggregates over the columns of `A` and twice over the self loop, scales row `j` by
  `dis j`, adds a bias and keeps the non-negative part.  Two such layers give the first result; a dense layer with
  a non-negative part and a final affine map of it give the second.
-/
import proofs.«104248_g70214125355148_fold_wed_m_1087_4_alg».proof.Proof.Algebra
import Idealize.ShloMosaic.Lib.ValueIdx

noncomputable section

namespace Cert.GcnSpec

open Idealize.ShloMosaic Cert.GcnAlgebra

variable {n a b : ℕ}

/-! ## Arrays as functions of their coordinates -/

/-- A matrix-shaped array as a function of its two coordinates. -/
abbrev mat {a b : ℕ} (x : (⟨2, ![a, b]⟩ : Shape).Idx → EReal) : Fin a → Fin b → EReal := fun i j => x (ValueIdx.ix2 i j)

/-- A one-row array as a function of its column. -/
abbrev row {b : ℕ} (x : (⟨2, ![1, b]⟩ : Shape).Idx → EReal) : Fin b → EReal := fun c => x (ValueIdx.ix2 (0 : Fin 1) c)

/-- A vector-shaped array as a function of its one coordinate. -/
abbrev vec {b : ℕ} (x : (⟨1, ![b]⟩ : Shape).Idx → EReal) : Fin b → EReal := fun c => x (ValueIdx.ix1 c)

/-! ## The stages -/

/-- The degree of node `j`: the sum of column `j`, plus the two self loops. -/
def deg (A : Fin n → Fin n → EReal) (j : Fin n) : EReal := (∑ k, A k j) + 2

/-- The inverse square root of the degree. -/
def dis (A : Fin n → Fin n → EReal) (j : Fin n) : EReal := Ideal.rsqrt (deg A j)

/-- The product of two matrices. -/
def xw (X : Fin n → Fin a → EReal) (W : Fin a → Fin b → EReal) (i : Fin n) (c : Fin b) : EReal := ∑ k, X i k * W k c

/-- Row `k` scaled by `dis k`. -/
def scaled (A : Fin n → Fin n → EReal) (Z : Fin n → Fin b → EReal) (k : Fin n) (c : Fin b) : EReal := dis A k * Z k c

/-- The aggregation over the graph with its two self loops: column `j` of `A` against column `c` of `Y`, plus twice `Y j c`. -/
def agg (A : Fin n → Fin n → EReal) (Y : Fin n → Fin b → EReal) (j : Fin n) (c : Fin b) : EReal :=
  (∑ k, A k j * Y k c) + 2 * Y j c

/-- One graph layer. -/
def layer (A : Fin n → Fin n → EReal) (X : Fin n → Fin a → EReal) (W : Fin a → Fin b → EReal) (bias : Fin b → EReal)
    (j : Fin n) (c : Fin b) : EReal :=
  max (dis A j * agg A (scaled A (xw X W)) j c + bias c) 0

/-- A dense layer with its non-negative part. -/
def dense (X : Fin n → Fin a → EReal) (W : Fin a → Fin b → EReal) (bias : Fin b → EReal) (i : Fin n) (c : Fin b) : EReal :=
  max (xw X W i c + bias c) 0

/-- An affine map. -/
def affine (X : Fin n → Fin a → EReal) (W : Fin a → Fin b → EReal) (bias : Fin b → EReal) (i : Fin n) (c : Fin b) : EReal :=
  xw X W i c + bias c

/-! ## Every stage is a real number when the inputs are and the adjacency holds zeros and ones -/

theorem deg_pos_real (A : Fin n → Fin n → EReal) (hA : ∀ k j, A k j = 0 ∨ A k j = 1) (j : Fin n) :
    ∃ r : ℝ, 0 < r ∧ deg A j = (r : EReal) :=
  deg_real (fun k => A k j) (fun k => hA k j)

theorem dis_real (A : Fin n → Fin n → EReal) (hA : ∀ k j, A k j = 0 ∨ A k j = 1) (j : Fin n) : IsReal (dis A j) := by
  obtain ⟨r, hr, hd⟩ := deg_pos_real A hA j
  exact rsqrt_real _ r hd hr

theorem xw_real (X : Fin n → Fin a → EReal) (W : Fin a → Fin b → EReal) (hX : ∀ i k, IsReal (X i k)) (hW : ∀ k c, IsReal (W k c))
    (i : Fin n) (c : Fin b) : IsReal (xw X W i c) :=
  IsReal.sum _ _ fun k _ => (hX i k).mul (hW k c)

theorem scaled_real (A : Fin n → Fin n → EReal) (hA : ∀ k j, A k j = 0 ∨ A k j = 1) (Z : Fin n → Fin b → EReal)
    (hZ : ∀ k c, IsReal (Z k c)) (k : Fin n) (c : Fin b) : IsReal (scaled A Z k c) :=
  (dis_real A hA k).mul (hZ k c)

theorem agg_real (A : Fin n → Fin n → EReal) (hA : ∀ k j, A k j = 0 ∨ A k j = 1) (Y : Fin n → Fin b → EReal)
    (hY : ∀ k c, IsReal (Y k c)) (j : Fin n) (c : Fin b) : IsReal (agg A Y j c) :=
  (IsReal.sum _ _ fun k _ => (isReal_of_zero_or_one (hA k j)).mul (hY k c)).add (IsReal.two.mul (hY j c))

theorem layer_real (A : Fin n → Fin n → EReal) (hA : ∀ k j, A k j = 0 ∨ A k j = 1) (X : Fin n → Fin a → EReal)
    (W : Fin a → Fin b → EReal) (bias : Fin b → EReal) (hX : ∀ i k, IsReal (X i k)) (hW : ∀ k c, IsReal (W k c))
    (hb : ∀ c, IsReal (bias c)) (j : Fin n) (c : Fin b) : IsReal (layer A X W bias j c) :=
  (((dis_real A hA j).mul (agg_real A hA _ (scaled_real A hA _ (xw_real X W hX hW)) j c)).add (hb c)).max IsReal.zero

end Cert.GcnSpec

end
-- ==== Proof.KernelRead.lean ====
/-
  The kernel's arithmetic read entry by entry, at the exact values.

  Its degree column is the adjacency's column sums (a product with a column of ones) plus two, and `dis` its inverse
  square root.  Each graph layer forms `Y = dis · (X W)`, multiplies the adjacency's columns against `Y` and once
  more against the remainder `Y - Y`, adds twice `Y`, scales by `dis`, adds the bias row and keeps the non-negative
  part.  With real features the remainder is zero, so each layer is the specification's layer.
-/
import proofs.«104248_g70214125355148_fold_wed_m_1087_4_alg».proof.Proof.Gen.KernelIdeal.Skeleton
import proofs.«104248_g70214125355148_fold_wed_m_1087_4_alg».proof.Proof.KernelDots
import proofs.«104248_g70214125355148_fold_wed_m_1087_4_alg».proof.Proof.LibColumn
import proofs.«104248_g70214125355148_fold_wed_m_1087_4_alg».proof.Proof.Spec
import proofs.«104248_g70214125355148_fold_wed_m_1087_4_alg».proof.Proof.KernelRun
import Idealize.ShloMosaic.Lib.ValueIdx
import Idealize.ShloMosaic.Lib.ValueLayout
import Idealize.ShloMosaic.Lib.Pipeline.Value

set_option maxRecDepth 16384

noncomputable section

namespace Cert.KernelIdeal.Read

open Cert.KernelIdeal Cert.KernelIdeal.Gen Idealize.ShloMosaic Idealize.ShloMosaic.ValueIdx
open Cert.GcnSpec Cert.GcnAlgebra Cert.KernelIdeal.Dots

/-! ## The inverse square roots of the degrees -/

/-- The kernel's `dis` column at row `j` is the specification's. -/
theorem pay4_apply (A : Vec Ideal S1024x1024 .f32) (j : Fin 1024) (u : Fin 1) : k0_pay4 A (ix2 j u) = dis (mat A) j := by
  unfold k0_pay4 k0_pay3
  show Ideal.rsqrt (matmul dot_S1024x1024_S1024x1_S1024x1_0_0_1_1_n_n none (truncf .bf16 A bitsLt_bf16_f32) (broadcast S1024x1 (Scalar.ofBits (F := Ideal) .bf16 0x3F80#16)) (constant S1024x1 .f32 0x00000000#32) (ix2 j u) + Scalar.ofBits (F := Ideal) .f32 0x40000000#32) = _
  rw [degT_apply]
  exact congrArg Ideal.rsqrt (deg_ones (fun k => A (ix2 k j)) _ _ ofBits_one_bf16 ofBits_two)

/-! ## The first layer -/

/-- The first layer's scaled features `dis · (X W1)`, as the kernel forms them. -/
def y1K (A : Vec Ideal S1024x1024 .f32) (X : Vec Ideal S1024x128 .f32) (W1 : Vec Ideal S128x512 .f32) : FVec Ideal S1024x512 .f32 :=
  mulf (broadcastTo S1024x512 (k0_pay4 A) broadcasts_S1024x1_S1024x512)
    (matmul (φ₁ := .f32) (φ₂ := .f32) dot_S1024x128_S128x512_S1024x512_1_0_0_1_n_n none X W1 (constant S1024x512 .f32 0x00000000#32))

/-- The first layer's activations, as the kernel forms them. -/
def x1K (A : Vec Ideal S1024x1024 .f32) (X : Vec Ideal S1024x128 .f32) (W1 : Vec Ideal S128x512 .f32) (b1 : Vec Ideal S1x512 .f32) :
    FVec Ideal S1024x512 .f32 :=
  maximumf (addf (mulf (broadcastTo S1024x512 (k0_pay4 A) broadcasts_S1024x1_S1024x512)
      (addf (addf (matmul dot_S1024x1024_S1024x512_S1024x512_0_0_1_1_n_n none (k0_pay3 A) (truncf .bf16 (y1K A X W1) bitsLt_bf16_f32) (constant S1024x512 .f32 0x00000000#32))
                  (matmul dot_S1024x1024_S1024x512_S1024x512_0_0_1_1_n_n none (k0_pay3 A) (truncf .bf16 (subf (y1K A X W1) (y1K A X W1)) bitsLt_bf16_f32) (constant S1024x512 .f32 0x00000000#32)))
            (mulf (broadcast S1024x512 (Scalar.ofBits (F := Ideal) .f32 0x40000000#32)) (y1K A X W1))))
    (broadcastTo S1024x512 (shapeCast S1x512 b1 shapeCasts_S1x512_S1x512) broadcasts_S1x512_S1024x512))
    (broadcast S1024x512 (Scalar.ofBits (F := Ideal) .f32 0x00000000#32))

set_option maxHeartbeats 2000000 in
/-- The kernel's second-layer scaled features are `dis` times the first layer's activations against `W2`. -/
theorem pay5_eq (A : Vec Ideal S1024x1024 .f32) (X : Vec Ideal S1024x128 .f32) (W1 : Vec Ideal S128x512 .f32) (b1 : Vec Ideal S1x512 .f32)
    (W2 : Vec Ideal S512x128 .f32) :
    k0_pay5 A X W1 b1 W2 = mulf (broadcastTo S1024x128 (k0_pay4 A) broadcasts_S1024x1_S1024x128)
      (matmul (φ₁ := .f32) (φ₂ := .f32) dot_S1024x512_S512x128_S1024x128_1_0_0_1_n_n none (x1K A X W1 b1) W2 (constant S1024x128 .f32 0x00000000#32)) := rfl

theorem y1K_apply (A : Vec Ideal S1024x1024 .f32) (X : Vec Ideal S1024x128 .f32) (W1 : Vec Ideal S128x512 .f32) (k : Fin 1024) (c : Fin 512) :
    y1K A X W1 (ix2 k c) = scaled (mat A) (xw (mat X) (mat W1)) k c := by
  show broadcastTo S1024x512 (k0_pay4 A) broadcasts_S1024x1_S1024x512 (ix2 k c) * matmul (φ₁ := .f32) (φ₂ := .f32) dot_S1024x128_S128x512_S1024x512_1_0_0_1_n_n none X W1 (constant S1024x512 .f32 0x00000000#32) (ix2 k c) = _
  rw [Cert.LibColumn.broadcastTo_a1_ab_apply, xw1_apply, pay4_apply]
  rfl

/-- The first layer's activations are the specification's first layer, when the adjacency holds zeros and ones and the
    features and weights are real. -/
theorem x1K_apply (A : Vec Ideal S1024x1024 .f32) (X : Vec Ideal S1024x128 .f32) (W1 : Vec Ideal S128x512 .f32) (b1 : Vec Ideal S1x512 .f32)
    (hA : ∀ i, A i = (0 : EReal) ∨ A i = (1 : EReal)) (hX : ∀ i, IsReal (X i)) (hW1 : ∀ i, IsReal (W1 i))
    (j : Fin 1024) (c : Fin 512) :
    x1K A X W1 b1 (ix2 j c) = layer (mat A) (mat X) (mat W1) (row b1) j c := by
  show max (broadcastTo S1024x512 (k0_pay4 A) broadcasts_S1024x1_S1024x512 (ix2 j c)
      * ((matmul dot_S1024x1024_S1024x512_S1024x512_0_0_1_1_n_n none (k0_pay3 A) (truncf .bf16 (y1K A X W1) bitsLt_bf16_f32) (constant S1024x512 .f32 0x00000000#32) (ix2 j c)
          + matmul dot_S1024x1024_S1024x512_S1024x512_0_0_1_1_n_n none (k0_pay3 A) (truncf .bf16 (subf (y1K A X W1) (y1K A X W1)) bitsLt_bf16_f32) (constant S1024x512 .f32 0x00000000#32) (ix2 j c))
         + Scalar.ofBits (F := Ideal) .f32 0x40000000#32 * y1K A X W1 (ix2 j c))
      + broadcastTo S1024x512 (shapeCast S1x512 b1 shapeCasts_S1x512_S1x512) broadcasts_S1x512_S1024x512 (ix2 j c))
    (Scalar.ofBits (F := Ideal) .f32 0x00000000#32) = _
  rw [Cert.LibColumn.broadcastTo_a1_ab_apply, aggT512_apply, aggT512_apply, broadcastTo_1b_ab_apply, shapeCast_self, pay4_apply]
  have hy : ∀ k : Fin 1024, IsReal (y1K A X W1 (ix2 k c)) := fun k => by
    rw [y1K_apply]
    exact scaled_real (mat A) (fun k j => hA (ix2 k j)) _ (xw_real (mat X) (mat W1) (fun i k => hX (ix2 i k)) (fun k c => hW1 (ix2 k c))) k c
  refine (layer_split (fun k => A (ix2 k j)) (fun k => y1K A X W1 (ix2 k c)) (y1K A X W1 (ix2 j c)) (dis (mat A) j) (b1 (ix2 (0 : Fin 1) c)) _ _ hy ofBits_two Ideal.ofBits_zero_f32).trans ?_
  unfold layer agg
  simp only [y1K_apply]

/-! ## The second layer -/

/-- The second layer's scaled features `dis · (x1 W2)`. -/
theorem pay5_apply (A : Vec Ideal S1024x1024 .f32) (X : Vec Ideal S1024x128 .f32) (W1 : Vec Ideal S128x512 .f32) (b1 : Vec Ideal S1x512 .f32)
    (W2 : Vec Ideal S512x128 .f32)
    (hA : ∀ i, A i = (0 : EReal) ∨ A i = (1 : EReal)) (hX : ∀ i, IsReal (X i)) (hW1 : ∀ i, IsReal (W1 i))
    (k : Fin 1024) (c : Fin 128) :
    k0_pay5 A X W1 b1 W2 (ix2 k c) = scaled (mat A) (xw (layer (mat A) (mat X) (mat W1) (row b1)) (mat W2)) k c := by
  rw [pay5_eq]
  show broadcastTo S1024x128 (k0_pay4 A) broadcasts_S1024x1_S1024x128 (ix2 k c)
    * matmul (φ₁ := .f32) (φ₂ := .f32) dot_S1024x512_S512x128_S1024x128_1_0_0_1_n_n none (x1K A X W1 b1) W2 (constant S1024x128 .f32 0x00000000#32) (ix2 k c) = _
  rw [Cert.LibColumn.broadcastTo_a1_ab_apply, xw2_apply, pay4_apply]
  unfold scaled xw
  simp only [x1K_apply A X W1 b1 hA hX hW1]

/-- The first result array is two layers of the specification. -/
theorem res0_apply (A : Vec Ideal S1024x1024 .f32) (X : Vec Ideal S1024x128 .f32) (W1 : Vec Ideal S128x512 .f32) (b1 : Vec Ideal S1x512 .f32)
    (W2 : Vec Ideal S512x128 .f32) (b2 : Vec Ideal S1x128 .f32)
    (hA : ∀ i, A i = (0 : EReal) ∨ A i = (1 : EReal)) (hX : ∀ i, IsReal (X i)) (hW1 : ∀ i, IsReal (W1 i))
    (hb1 : ∀ i, IsReal (b1 i)) (hW2 : ∀ i, IsReal (W2 i)) (j : Fin 1024) (c : Fin 128) :
    Cert.KernelIdeal.WholeRun.res0 A X W1 b1 W2 b2 (ix2 j c)
      = layer (mat A) (layer (mat A) (mat X) (mat W1) (row b1)) (mat W2) (row b2) j c := by
  unfold Cert.KernelIdeal.WholeRun.res0 k0_pay1 k0_pay6 k0_pay7
  show max (broadcastTo S1024x128 (k0_pay4 A) broadcasts_S1024x1_S1024x128 (ix2 j c)
      * ((matmul dot_S1024x1024_S1024x128_S1024x128_0_0_1_1_n_n none (k0_pay3 A) (truncf .bf16 (k0_pay5 A X W1 b1 W2) bitsLt_bf16_f32) (constant S1024x128 .f32 0x00000000#32) (ix2 j c)
          + matmul dot_S1024x1024_S1024x128_S1024x128_0_0_1_1_n_n none (k0_pay3 A) (truncf .bf16 (subf (k0_pay5 A X W1 b1 W2) (k0_pay5 A X W1 b1 W2)) bitsLt_bf16_f32) (constant S1024x128 .f32 0x00000000#32) (ix2 j c))
         + Scalar.ofBits (F := Ideal) .f32 0x40000000#32 * k0_pay5 A X W1 b1 W2 (ix2 j c))
      + broadcastTo S1024x128 (shapeCast S1x128 b2 shapeCasts_S1x128_S1x128) broadcasts_S1x128_S1024x128 (ix2 j c))
    (Scalar.ofBits (F := Ideal) .f32 0x00000000#32) = _
  rw [Cert.LibColumn.broadcastTo_a1_ab_apply, aggT128_apply, aggT128_apply, broadcastTo_1b_ab_apply, shapeCast_self, pay4_apply]
  have hx1 : ∀ i k, IsReal (layer (mat A) (mat X) (mat W1) (row b1) i k) :=
    layer_real (mat A) (fun k j => hA (ix2 k j)) (mat X) (mat W1) (row b1) (fun i k => hX (ix2 i k)) (fun k c => hW1 (ix2 k c)) (fun c => hb1 (ix2 (0 : Fin 1) c))
  have hy : ∀ k : Fin 1024, IsReal (k0_pay5 A X W1 b1 W2 (ix2 k c)) := fun k => by
    rw [pay5_apply A X W1 b1 W2 hA hX hW1]
    exact scaled_real (mat A) (fun k j => hA (ix2 k j)) _ (xw_real _ (mat W2) hx1 (fun k c => hW2 (ix2 k c))) k c
  refine (layer_split (fun k => A (ix2 k j)) (fun k => k0_pay5 A X W1 b1 W2 (ix2 k c)) (k0_pay5 A X W1 b1 W2 (ix2 j c)) (dis (mat A) j) (b2 (ix2 (0 : Fin 1) c)) _ _ hy ofBits_two Ideal.ofBits_zero_f32).trans ?_
  simp only [pay5_apply A X W1 b1 W2 hA hX hW1]
  rfl

/-! ## The decoder -/

/-- The second result array: a dense layer with its non-negative part over the first result, then an affine map. -/
theorem res1_apply (A : Vec Ideal S1024x1024 .f32) (X : Vec Ideal S1024x128 .f32) (W1 : Vec Ideal S128x512 .f32) (b1 : Vec Ideal S1x512 .f32)
    (W2 : Vec Ideal S512x128 .f32) (b2 : Vec Ideal S1x128 .f32) (F1 : Vec Ideal S128x256 .f32) (f1 : Vec Ideal S1x256 .f32)
    (F2 : Vec Ideal S256x1 .f32) (f2 : Vec Ideal S1x1 .f32)
    (hA : ∀ i, A i = (0 : EReal) ∨ A i = (1 : EReal)) (hX : ∀ i, IsReal (X i)) (hW1 : ∀ i, IsReal (W1 i))
    (hb1 : ∀ i, IsReal (b1 i)) (hW2 : ∀ i, IsReal (W2 i)) (i : Fin 1024) (u : Fin 1) :
    Cert.KernelIdeal.WholeRun.res1 A X W1 b1 W2 b2 F1 f1 F2 f2 (ix2 i u)
      = affine (dense (layer (mat A) (layer (mat A) (mat X) (mat W1) (row b1)) (mat W2) (row b2)) (mat F1) (row f1)) (mat F2) (row f2) i u := by
  unfold Cert.KernelIdeal.WholeRun.res1 k0_pay2
  show matmul (φ₁ := .f32) (φ₂ := .f32) dot_S1024x256_S256x1_S1024x1_1_0_0_1_n_n none
        (maximumf (addf (matmul (φ₁ := .f32) (φ₂ := .f32) dot_S1024x128_S128x256_S1024x256_1_0_0_1_n_n none
              (Cert.KernelIdeal.WholeRun.res0 A X W1 b1 W2 b2) F1 (constant S1024x256 .f32 0x00000000#32))
            (broadcastTo S1024x256 (shapeCast S1x256 f1 shapeCasts_S1x256_S1x256) broadcasts_S1x256_S1024x256))
          (broadcast S1024x256 (Scalar.ofBits (F := Ideal) .f32 0x00000000#32)))
        F2 (constant S1024x1 .f32 0x00000000#32) (ix2 i u)
      + broadcastTo S1024x1 (shapeCast S1x1 f2 shapeCasts_S1x1_S1x1) broadcasts_S1x1_S1024x1 (ix2 i u) = _
  simp only [shapeCast_self]
  rw [fc2_apply, broadcastTo_1b_ab_apply]
  unfold affine xw
  refine congrArg (fun s : EReal => s + f2 (ix2 (0 : Fin 1) u)) (Finset.sum_congr rfl fun k _ => congrArg (fun s : EReal => s * F2 (ix2 k u)) ?_)
  show max (matmul (φ₁ := .f32) (φ₂ := .f32) dot_S1024x128_S128x256_S1024x256_1_0_0_1_n_n none
          (Cert.KernelIdeal.WholeRun.res0 A X W1 b1 W2 b2) F1 (constant S1024x256 .f32 0x00000000#32) (ix2 i k)
        + broadcastTo S1024x256 f1 broadcasts_S1x256_S1024x256 (ix2 i k))
      (Scalar.ofBits (F := Ideal) .f32 0x00000000#32) = _
  rw [fc1_apply, broadcastTo_1b_ab_apply]
  unfold dense xw
  refine congrArg₂ (fun s z : EReal => max (s + f1 (ix2 (0 : Fin 1) k)) z)
    (Finset.sum_congr rfl fun q _ => congrArg (fun s : EReal => s * F1 (ix2 q k)) ?_) Ideal.ofBits_zero_f32
  exact res0_apply A X W1 b1 W2 b2 hA hX hW1 hb1 hW2 i q

end Cert.KernelIdeal.Read

end
-- ==== Proof.RefRead.lean ====
/-
  The reference program read at an entry, as the specification's terms.

  The program builds the identity matrix from two index grids, adds it twice to the adjacency matrix, sums the columns
  to the degrees, takes "one over the square root where positive, else zero" of them, and for each of its two graph
  layers multiplies the features by the weights, scales the rows, multiplies by the transposed matrix, scales again,
  adds the bias row and keeps the non-negative part; a dense layer and an affine map follow.  Each lemma below reads
  one of these stages at coordinates; the last two read the two results as the specification's `layer`, `dense` and
  `affine`.
-/
import proofs.«104248_g70214125355148_fold_wed_m_1087_4_alg».proof.Proof.Gen.ReferenceIdeal.Read
import proofs.«104248_g70214125355148_fold_wed_m_1087_4_alg».proof.Proof.Spec
import proofs.«104248_g70214125355148_fold_wed_m_1087_4_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefRead

open Cert.ReferenceIdeal Cert.ReferenceIdeal.Gen Cert.ReferenceIdeal.Read Idealize.ShloMosaic Idealize.ShloMosaic.ValueIdx
  Cert.GcnSpec Cert.GcnAlgebra

/-! ## The identity matrix -/

/-- Two row numbers below 1024 spell the same 32-bit word only when they are equal. -/
theorem word_eq_iff (k j : Fin 1024) : BitVec.ofNat 32 k.val = BitVec.ofNat 32 j.val ↔ k = j := by
  constructor
  · intro h
    have h' := congrArg BitVec.toNat h
    rw [BitVec.toNat_ofNat, BitVec.toNat_ofNat, Nat.mod_eq_of_lt (by have := k.isLt; omega),
      Nat.mod_eq_of_lt (by have := j.isLt; omega)] at h'
    exact Fin.ext h'
  · intro h; rw [h]

/-- The comparison of the row grid (plus the zero word) with the column grid, converted to a number: one on the
    diagonal, zero off it. -/
theorem eye_read (k j : Fin 1024) :
    (FloatOps.uitofp (F := Ideal) .f32 (IntOp.cmpi .eq (IntOp.addi (BitVec.ofNat 32 k.val) 0#32) (BitVec.ofNat 32 j.val)) : EReal)
      = if k = j then 1 else 0 := by
  unfold IntOp.cmpi IntOp.addi
  rw [BitVec.add_zero]
  by_cases h : k = j
  · rw [if_pos h, h]
    show (((BitVec.ofBool (BitVec.ofNat 32 j.val == BitVec.ofNat 32 j.val)).toNat : ℝ) : EReal) = 1
    rw [beq_self_eq_true]
    simp
  · rw [if_neg h]
    have hne : (BitVec.ofNat 32 k.val == BitVec.ofNat 32 j.val) = false := by
      rw [beq_eq_false_iff_ne]; exact fun e => h ((word_eq_iff k j).1 e)
    show (((BitVec.ofBool (BitVec.ofNat 32 k.val == BitVec.ofNat 32 j.val)).toNat : ℝ) : EReal) = 0
    rw [hne]
    simp

theorem v5_eq (k j : Fin 1024) : val_main_v5 (F := Ideal) (ix2 k j) = if k = j then (1 : EReal) else 0 := by
  rw [val_main_v5_apply, val_main_v4_apply, val_main_v3_apply, val_main_v2_apply, val_main_c_apply, val_main_v0_apply,
    val_main_v1_apply]
  exact eye_read k j

theorem v12_eq (k j : Fin 1024) : val_main_v12 (F := Ideal) (ix2 k j) = if k = j then (1 : EReal) else 0 := by
  rw [val_main_v12_apply, val_main_v11_apply, val_main_v10_apply, val_main_v9_apply, val_main_c_0_apply, val_main_v7_apply,
    val_main_v8_apply]
  exact eye_read k j

theorem v39_eq (k j : Fin 1024) : val_main_v39 (F := Ideal) (ix2 k j) = if k = j then (1 : EReal) else 0 := by
  rw [val_main_v39_apply, val_main_v38_apply, val_main_v37_apply, val_main_v36_apply, val_main_c_4_apply, val_main_v34_apply,
    val_main_v35_apply]
  exact eye_read k j

/-! ## The adjacency with both self loops -/

theorem v6_eq (x0 : FVec Ideal S1024x1024 .f32) (k j : Fin 1024) :
    val_main_v6 (F := Ideal) x0 (ix2 k j) = x0 (ix2 k j) + (if k = j then (1 : EReal) else 0) := by
  rw [val_main_v6_apply, Ideal.addf_def, v5_eq]

theorem v13_eq (x0 : FVec Ideal S1024x1024 .f32) (k j : Fin 1024) :
    val_main_v13 (F := Ideal) x0 (ix2 k j)
      = (x0 (ix2 k j) + (if k = j then (1 : EReal) else 0)) + (if k = j then (1 : EReal) else 0) := by
  rw [val_main_v13_apply, Ideal.addf_def, v6_eq, v12_eq]

theorem v40_eq (x0 : FVec Ideal S1024x1024 .f32) (k j : Fin 1024) :
    val_main_v40 (F := Ideal) x0 (ix2 k j)
      = (x0 (ix2 k j) + (if k = j then (1 : EReal) else 0)) + (if k = j then (1 : EReal) else 0) := by
  rw [val_main_v40_apply, Ideal.addf_def, v6_eq, v39_eq]

/-! ## The degrees -/

theorem idx14_eq (j k : Fin 1024) : idx_main_v14 (ix1 j) k = ix2 k j :=
  funext fun a => Fin.ext (by match a with | ⟨0, _⟩ => rfl | ⟨1, _⟩ => rfl)

theorem idx41_eq (j k : Fin 1024) : idx_main_v41 (ix1 j) k = ix2 k j :=
  funext fun a => Fin.ext (by match a with | ⟨0, _⟩ => rfl | ⟨1, _⟩ => rfl)

/-- The column sums of the matrix with both self loops are the specification's degrees. -/
theorem v14_eq (x0 : FVec Ideal S1024x1024 .f32) (j : Fin 1024) :
    val_main_v14 (F := Ideal) x0 (ix1 j) = deg (mat x0) j := by
  rw [val_main_v14_apply, val_main_cst_apply, Ideal.ofBits_def, Ideal.ofBits_zero_f32]
  simp only [idx14_eq, v13_eq]
  exact deg_loops (fun k => x0 (ix2 k j)) (fun k => if k = j then 1 else 0) (fun k => if k = j then 1 else 0) j
    (fun _ => rfl) (fun _ => rfl)

theorem v41_eq (x0 : FVec Ideal S1024x1024 .f32) (j : Fin 1024) :
    val_main_v41 (F := Ideal) x0 (ix1 j) = deg (mat x0) j := by
  rw [val_main_v41_apply, val_main_cst_5_apply, Ideal.ofBits_def, Ideal.ofBits_zero_f32]
  simp only [idx41_eq, v40_eq]
  exact deg_loops (fun k => x0 (ix2 k j)) (fun k => if k = j then 1 else 0) (fun k => if k = j then 1 else 0) j
    (fun _ => rfl) (fun _ => rfl)

/-! ## The inverse square roots of the degrees -/

/-- "One over the square root where the degree is positive, else zero" is the inverse square root: with entries that
    are zeros and ones every degree is a positive real. -/
theorem v20_eq (x0 : FVec Ideal S1024x1024 .f32) (hA : ∀ i, x0 i = (0 : EReal) ∨ x0 i = (1 : EReal)) (j : Fin 1024) :
    val_main_v20 (F := Ideal) x0 (ix1 j) = dis (mat x0) j := by
  obtain ⟨r, hr, hd⟩ := deg_pos_real (mat x0) (fun k j => hA (ix2 k j)) j
  rw [val_main_v20_apply, val_main_v16_apply, val_main_v19_apply, val_main_v17_apply, val_main_v18_apply,
    val_main_cst_2_apply, val_main_v15_apply, val_main_cst_1_apply, Ideal.cmpf_def, Ideal.hostDivf_def,
    Ideal.hostUnary_sqrt_def, v14_eq]
  exact guarded_rsqrt _ _ _ r hd hr Ideal.ofBits_zero_f32 ofBits_one _

theorem v47_eq (x0 : FVec Ideal S1024x1024 .f32) (hA : ∀ i, x0 i = (0 : EReal) ∨ x0 i = (1 : EReal)) (j : Fin 1024) :
    val_main_v47 (F := Ideal) x0 (ix1 j) = dis (mat x0) j := by
  obtain ⟨r, hr, hd⟩ := deg_pos_real (mat x0) (fun k j => hA (ix2 k j)) j
  rw [val_main_v47_apply, val_main_v43_apply, val_main_v46_apply, val_main_v44_apply, val_main_v45_apply,
    val_main_cst_7_apply, val_main_v42_apply, val_main_cst_6_apply, Ideal.cmpf_def, Ideal.hostDivf_def,
    Ideal.hostUnary_sqrt_def, v41_eq]
  exact guarded_rsqrt _ _ _ r hd hr Ideal.ofBits_zero_f32 ofBits_one _

/-! ## The first layer -/

/-- The features times the weights. -/
theorem v21_eq (x1 : FVec Ideal S1024x128 .f32) (x2 : FVec Ideal S128x512 .f32) (i : Fin 1024) (c : Fin 512) :
    val_main_v21 (F := Ideal) x1 x2 (ix2 i c) = xw (mat x1) (mat x2) i c := by
  rw [val_main_v21_apply]
  refine Finset.sum_congr rfl fun k _ => ?_
  have el : lidx_main_v21 (ix2 i c) k = ix2 i k :=
    funext fun a => Fin.ext (by match a with | ⟨0, _⟩ => rfl | ⟨1, _⟩ => rfl)
  have er : ridx_main_v21 (ix2 i c) k = ix2 k c :=
    funext fun a => Fin.ext (by match a with | ⟨0, _⟩ => rfl | ⟨1, _⟩ => rfl)
  rw [el, er]

/-- The column of inverse square roots spread along the columns (the inner scaling). -/
theorem v25_eq (x0 : FVec Ideal S1024x1024 .f32) (k : Fin 1024) (c : Fin 512) :
    val_main_v25 (F := Ideal) x0 (ix2 k c) = val_main_v20 (F := Ideal) x0 (ix1 k) := by
  rw [val_main_v25_apply, val_main_v24_apply]
  exact congrArg _ (funext fun a => Fin.ext (by match a with | ⟨0, _⟩ => rfl))

/-- The column of inverse square roots spread along the columns (the outer scaling). -/
theorem v28_eq (x0 : FVec Ideal S1024x1024 .f32) (j : Fin 1024) (c : Fin 512) :
    val_main_v28 (F := Ideal) x0 (ix2 j c) = val_main_v20 (F := Ideal) x0 (ix1 j) := by
  rw [val_main_v28_apply, val_main_v22_apply]
  exact congrArg _ (funext fun a => Fin.ext (by match a with | ⟨0, _⟩ => rfl))

/-- The bias row spread along the rows. -/
theorem v31_eq (x3 : FVec Ideal S512 .f32) (j : Fin 1024) (c : Fin 512) :
    val_main_v31 (F := Ideal) x3 (ix2 j c) = vec x3 c := by
  rw [val_main_v31_apply, val_main_v30_apply]
  exact congrArg x3 (funext fun a => Fin.ext (by match a with | ⟨0, _⟩ => rfl))

/-- The transposed matrix with both self loops. -/
theorem v23_eq (x0 : FVec Ideal S1024x1024 .f32) (j k : Fin 1024) :
    val_main_v23 (F := Ideal) x0 (ix2 j k) = val_main_v13 (F := Ideal) x0 (ix2 k j) := by
  rw [val_main_v23_apply]
  exact congrArg _ (funext fun a => Fin.ext (by match a with | ⟨0, _⟩ => rfl | ⟨1, _⟩ => rfl))

/-- The scaled product. -/
theorem v26_eq (x0 : FVec Ideal S1024x1024 .f32) (x1 : FVec Ideal S1024x128 .f32) (x2 : FVec Ideal S128x512 .f32)
    (hA : ∀ i, x0 i = (0 : EReal) ∨ x0 i = (1 : EReal)) (k : Fin 1024) (c : Fin 512) :
    val_main_v26 (F := Ideal) x0 x1 x2 (ix2 k c) = scaled (mat x0) (xw (mat x1) (mat x2)) k c := by
  rw [val_main_v26_apply, Ideal.mulf_def, v25_eq, v20_eq x0 hA, v21_eq]
  rfl

/-- The aggregation: the transposed matrix with both self loops against the scaled product. -/
theorem v27_eq (x0 : FVec Ideal S1024x1024 .f32) (x1 : FVec Ideal S1024x128 .f32) (x2 : FVec Ideal S128x512 .f32)
    (hA : ∀ i, x0 i = (0 : EReal) ∨ x0 i = (1 : EReal)) (j : Fin 1024) (c : Fin 512) :
    val_main_v27 (F := Ideal) x0 x1 x2 (ix2 j c) = agg (mat x0) (scaled (mat x0) (xw (mat x1) (mat x2))) j c := by
  rw [val_main_v27_apply]
  have e : ∀ k : Fin 1024,
      val_main_v23 (F := Ideal) x0 (lidx_main_v27 (ix2 j c) k) * val_main_v26 (F := Ideal) x0 x1 x2 (ridx_main_v27 (ix2 j c) k)
        = ((x0 (ix2 k j) + (if k = j then (1 : EReal) else 0)) + (if k = j then (1 : EReal) else 0))
            * scaled (mat x0) (xw (mat x1) (mat x2)) k c := fun k => by
    have el : lidx_main_v27 (ix2 j c) k = ix2 j k :=
      funext fun a => Fin.ext (by match a with | ⟨0, _⟩ => rfl | ⟨1, _⟩ => rfl)
    have er : ridx_main_v27 (ix2 j c) k = ix2 k c :=
      funext fun a => Fin.ext (by match a with | ⟨0, _⟩ => rfl | ⟨1, _⟩ => rfl)
    rw [el, er, v23_eq, v13_eq, v26_eq x0 x1 x2 hA]
  rw [Finset.sum_congr rfl fun k _ => e k]
  exact agg_loops (fun k => x0 (ix2 k j)) (fun k => if k = j then 1 else 0) (fun k => if k = j then 1 else 0)
    (fun k => scaled (mat x0) (xw (mat x1) (mat x2)) k c) j (fun k => nonneg_of_zero_or_one (hA (ix2 k j)))
    (fun _ => rfl) (fun _ => rfl)

/-- The first graph layer. -/
theorem v33_eq (x0 : FVec Ideal S1024x1024 .f32) (x1 : FVec Ideal S1024x128 .f32) (x2 : FVec Ideal S128x512 .f32)
    (x3 : FVec Ideal S512 .f32) (hA : ∀ i, x0 i = (0 : EReal) ∨ x0 i = (1 : EReal)) (j : Fin 1024) (c : Fin 512) :
    val_main_v33 (F := Ideal) x0 x1 x2 x3 (ix2 j c) = layer (mat x0) (mat x1) (mat x2) (vec x3) j c := by
  rw [val_main_v33_apply, val_main_v32_apply, val_main_v29_apply, val_main_call1_v0_apply, val_main_call1_cst_apply,
    Ideal.maximumf_def, Ideal.addf_def, Ideal.mulf_def, Ideal.ofBits_def, Ideal.ofBits_zero_f32, v28_eq, v20_eq x0 hA,
    v27_eq x0 x1 x2 hA, v31_eq]
  rfl

/-! ## The second layer -/

/-- The first layer's result times the second weights. -/
theorem v48_eq (x0 : FVec Ideal S1024x1024 .f32) (x1 : FVec Ideal S1024x128 .f32) (x2 : FVec Ideal S128x512 .f32)
    (x3 : FVec Ideal S512 .f32) (x4 : FVec Ideal S512x128 .f32) (hA : ∀ i, x0 i = (0 : EReal) ∨ x0 i = (1 : EReal))
    (i : Fin 1024) (c : Fin 128) :
    val_main_v48 (F := Ideal) x0 x1 x2 x3 x4 (ix2 i c)
      = xw (layer (mat x0) (mat x1) (mat x2) (vec x3)) (mat x4) i c := by
  rw [val_main_v48_apply]
  refine Finset.sum_congr rfl fun k _ => ?_
  have el : lidx_main_v48 (ix2 i c) k = ix2 i k :=
    funext fun a => Fin.ext (by match a with | ⟨0, _⟩ => rfl | ⟨1, _⟩ => rfl)
  have er : ridx_main_v48 (ix2 i c) k = ix2 k c :=
    funext fun a => Fin.ext (by match a with | ⟨0, _⟩ => rfl | ⟨1, _⟩ => rfl)
  rw [el, er, v33_eq x0 x1 x2 x3 hA]

theorem v52_eq (x0 : FVec Ideal S1024x1024 .f32) (k : Fin 1024) (c : Fin 128) :
    val_main_v52 (F := Ideal) x0 (ix2 k c) = val_main_v47 (F := Ideal) x0 (ix1 k) := by
  rw [val_main_v52_apply, val_main_v51_apply]
  exact congrArg _ (funext fun a => Fin.ext (by match a with | ⟨0, _⟩ => rfl))

theorem v55_eq (x0 : FVec Ideal S1024x1024 .f32) (j : Fin 1024) (c : Fin 128) :
    val_main_v55 (F := Ideal) x0 (ix2 j c) = val_main_v47 (F := Ideal) x0 (ix1 j) := by
  rw [val_main_v55_apply, val_main_v49_apply]
  exact congrArg _ (funext fun a => Fin.ext (by match a with | ⟨0, _⟩ => rfl))

theorem v58_eq (x5 : FVec Ideal S128 .f32) (j : Fin 1024) (c : Fin 128) :
    val_main_v58 (F := Ideal) x5 (ix2 j c) = vec x5 c := by
  rw [val_main_v58_apply, val_main_v57_apply]
  exact congrArg x5 (funext fun a => Fin.ext (by match a with | ⟨0, _⟩ => rfl))

theorem v50_eq (x0 : FVec Ideal S1024x1024 .f32) (j k : Fin 1024) :
    val_main_v50 (F := Ideal) x0 (ix2 j k) = val_main_v40 (F := Ideal) x0 (ix2 k j) := by
  rw [val_main_v50_apply]
  exact congrArg _ (funext fun a => Fin.ext (by match a with | ⟨0, _⟩ => rfl | ⟨1, _⟩ => rfl))

theorem v53_eq (x0 : FVec Ideal S1024x1024 .f32) (x1 : FVec Ideal S1024x128 .f32) (x2 : FVec Ideal S128x512 .f32)
    (x3 : FVec Ideal S512 .f32) (x4 : FVec Ideal S512x128 .f32) (hA : ∀ i, x0 i = (0 : EReal) ∨ x0 i = (1 : EReal))
    (k : Fin 1024) (c : Fin 128) :
    val_main_v53 (F := Ideal) x0 x1 x2 x3 x4 (ix2 k c)
      = scaled (mat x0) (xw (layer (mat x0) (mat x1) (mat x2) (vec x3)) (mat x4)) k c := by
  rw [val_main_v53_apply, Ideal.mulf_def, v52_eq, v47_eq x0 hA, v48_eq x0 x1 x2 x3 x4 hA]
  rfl

theorem v54_eq (x0 : FVec Ideal S1024x1024 .f32) (x1 : FVec Ideal S1024x128 .f32) (x2 : FVec Ideal S128x512 .f32)
    (x3 : FVec Ideal S512 .f32) (x4 : FVec Ideal S512x128 .f32) (hA : ∀ i, x0 i = (0 : EReal) ∨ x0 i = (1 : EReal))
    (j : Fin 1024) (c : Fin 128) :
    val_main_v54 (F := Ideal) x0 x1 x2 x3 x4 (ix2 j c)
      = agg (mat x0) (scaled (mat x0) (xw (layer (mat x0) (mat x1) (mat x2) (vec x3)) (mat x4))) j c := by
  rw [val_main_v54_apply]
  have e : ∀ k : Fin 1024,
      val_main_v50 (F := Ideal) x0 (lidx_main_v54 (ix2 j c) k)
          * val_main_v53 (F := Ideal) x0 x1 x2 x3 x4 (ridx_main_v54 (ix2 j c) k)
        = ((x0 (ix2 k j) + (if k = j then (1 : EReal) else 0)) + (if k = j then (1 : EReal) else 0))
            * scaled (mat x0) (xw (layer (mat x0) (mat x1) (mat x2) (vec x3)) (mat x4)) k c := fun k => by
    have el : lidx_main_v54 (ix2 j c) k = ix2 j k :=
      funext fun a => Fin.ext (by match a with | ⟨0, _⟩ => rfl | ⟨1, _⟩ => rfl)
    have er : ridx_main_v54 (ix2 j c) k = ix2 k c :=
      funext fun a => Fin.ext (by match a with | ⟨0, _⟩ => rfl | ⟨1, _⟩ => rfl)
    rw [el, er, v50_eq, v40_eq, v53_eq x0 x1 x2 x3 x4 hA]
  rw [Finset.sum_congr rfl fun k _ => e k]
  exact agg_loops (fun k => x0 (ix2 k j)) (fun k => if k = j then 1 else 0) (fun k => if k = j then 1 else 0)
    (fun k => scaled (mat x0) (xw (layer (mat x0) (mat x1) (mat x2) (vec x3)) (mat x4)) k c) j
    (fun k => nonneg_of_zero_or_one (hA (ix2 k j))) (fun _ => rfl) (fun _ => rfl)

/-- The first result: two graph layers. -/
theorem out0_eq (x0 : FVec Ideal S1024x1024 .f32) (x1 : FVec Ideal S1024x128 .f32) (x2 : FVec Ideal S128x512 .f32)
    (x3 : FVec Ideal S512 .f32) (x4 : FVec Ideal S512x128 .f32) (x5 : FVec Ideal S128 .f32)
    (hA : ∀ i, x0 i = (0 : EReal) ∨ x0 i = (1 : EReal)) (j : Fin 1024) (c : Fin 128) :
    val_main_v60 (F := Ideal) x0 x1 x2 x3 x4 x5 (ix2 j c)
      = layer (mat x0) (layer (mat x0) (mat x1) (mat x2) (vec x3)) (mat x4) (vec x5) j c := by
  rw [val_main_v60_apply, val_main_v59_apply, val_main_v56_apply, val_main_call3_v0_apply, val_main_call3_cst_apply,
    Ideal.maximumf_def, Ideal.addf_def, Ideal.mulf_def, Ideal.ofBits_def, Ideal.ofBits_zero_f32, v55_eq, v47_eq x0 hA,
    v54_eq x0 x1 x2 x3 x4 hA, v58_eq]
  rfl

/-! ## The decoder -/

theorem v61_eq (x0 : FVec Ideal S1024x1024 .f32) (x1 : FVec Ideal S1024x128 .f32) (x2 : FVec Ideal S128x512 .f32)
    (x3 : FVec Ideal S512 .f32) (x4 : FVec Ideal S512x128 .f32) (x5 : FVec Ideal S128 .f32) (x6 : FVec Ideal S128x256 .f32)
    (hA : ∀ i, x0 i = (0 : EReal) ∨ x0 i = (1 : EReal)) (i : Fin 1024) (c : Fin 256) :
    val_main_v61 (F := Ideal) x0 x1 x2 x3 x4 x5 x6 (ix2 i c)
      = xw (layer (mat x0) (layer (mat x0) (mat x1) (mat x2) (vec x3)) (mat x4) (vec x5)) (mat x6) i c := by
  rw [val_main_v61_apply]
  refine Finset.sum_congr rfl fun k _ => ?_
  have el : lidx_main_v61 (ix2 i c) k = ix2 i k :=
    funext fun a => Fin.ext (by match a with | ⟨0, _⟩ => rfl | ⟨1, _⟩ => rfl)
  have er : ridx_main_v61 (ix2 i c) k = ix2 k c :=
    funext fun a => Fin.ext (by match a with | ⟨0, _⟩ => rfl | ⟨1, _⟩ => rfl)
  rw [el, er, out0_eq x0 x1 x2 x3 x4 x5 hA]

theorem v63_eq (x7 : FVec Ideal S256 .f32) (i : Fin 1024) (c : Fin 256) :
    val_main_v63 (F := Ideal) x7 (ix2 i c) = vec x7 c := by
  rw [val_main_v63_apply, val_main_v62_apply]
  exact congrArg x7 (funext fun a => Fin.ext (by match a with | ⟨0, _⟩ => rfl))

/-- The dense layer with its non-negative part. -/
theorem v65_eq (x0 : FVec Ideal S1024x1024 .f32) (x1 : FVec Ideal S1024x128 .f32) (x2 : FVec Ideal S128x512 .f32)
    (x3 : FVec Ideal S512 .f32) (x4 : FVec Ideal S512x128 .f32) (x5 : FVec Ideal S128 .f32) (x6 : FVec Ideal S128x256 .f32)
    (x7 : FVec Ideal S256 .f32) (hA : ∀ i, x0 i = (0 : EReal) ∨ x0 i = (1 : EReal)) (i : Fin 1024) (c : Fin 256) :
    val_main_v65 (F := Ideal) x0 x1 x2 x3 x4 x5 x6 x7 (ix2 i c)
      = dense (layer (mat x0) (layer (mat x0) (mat x1) (mat x2) (vec x3)) (mat x4) (vec x5)) (mat x6) (vec x7) i c := by
  rw [val_main_v65_apply, val_main_v64_apply, val_main_call4_v0_apply, val_main_call4_cst_apply, Ideal.maximumf_def,
    Ideal.addf_def, Ideal.ofBits_def, Ideal.ofBits_zero_f32, v61_eq x0 x1 x2 x3 x4 x5 x6 hA, v63_eq]
  rfl

theorem v68_eq (x9 : FVec Ideal S1 .f32) (i : Fin 1024) (u : Fin 1) :
    val_main_v68 (F := Ideal) x9 (ix2 i u) = vec x9 u := by
  rw [val_main_v68_apply, val_main_v67_apply]
  exact congrArg x9 (funext fun a => Fin.ext (by
    match a with
    | ⟨0, _⟩ => show 0 = u.val; have := u.isLt; omega))

/-- The second result: the dense layer and the affine map of the first result. -/
theorem out1_eq (x0 : FVec Ideal S1024x1024 .f32) (x1 : FVec Ideal S1024x128 .f32) (x2 : FVec Ideal S128x512 .f32)
    (x3 : FVec Ideal S512 .f32) (x4 : FVec Ideal S512x128 .f32) (x5 : FVec Ideal S128 .f32) (x6 : FVec Ideal S128x256 .f32)
    (x7 : FVec Ideal S256 .f32) (x8 : FVec Ideal S256x1 .f32) (x9 : FVec Ideal S1 .f32)
    (hA : ∀ i, x0 i = (0 : EReal) ∨ x0 i = (1 : EReal)) (i : Fin 1024) (u : Fin 1) :
    val_main_v69 (F := Ideal) x0 x1 x2 x3 x4 x5 x6 x7 x8 x9 (ix2 i u)
      = affine (dense (layer (mat x0) (layer (mat x0) (mat x1) (mat x2) (vec x3)) (mat x4) (vec x5)) (mat x6) (vec x7))
          (mat x8) (vec x9) i u := by
  rw [val_main_v69_apply, Ideal.addf_def, v68_eq, val_main_v66_apply]
  have e : ∀ k : Fin 256,
      val_main_v65 (F := Ideal) x0 x1 x2 x3 x4 x5 x6 x7 (lidx_main_v66 (ix2 i u) k) * x8 (ridx_main_v66 (ix2 i u) k)
        = dense (layer (mat x0) (layer (mat x0) (mat x1) (mat x2) (vec x3)) (mat x4) (vec x5)) (mat x6) (vec x7) i k
            * mat x8 k u := fun k => by
    have el : lidx_main_v66 (ix2 i u) k = ix2 i k :=
      funext fun a => Fin.ext (by match a with | ⟨0, _⟩ => rfl | ⟨1, _⟩ => rfl)
    have er : ridx_main_v66 (ix2 i u) k = ix2 k u :=
      funext fun a => Fin.ext (by match a with | ⟨0, _⟩ => rfl | ⟨1, _⟩ => rfl)
    rw [el, er, v65_eq x0 x1 x2 x3 x4 x5 x6 x7 hA]
  rw [Finset.sum_congr rfl fun k _ => e k]
  rfl

end Cert.ReferenceIdeal.RefRead

end
-- ==== Proof.lean ====
/-
  A fused graph auto-encoder kernel against its plain reference, at the exact values.

  The adjacency matrix `A` holds zeros and ones.  Node `j` has degree `deg j = (sum of column j of A) + 2` — every node
  carries two self loops — and `dis j` is its inverse square root.  A graph layer sends features `X` to the non-negative
  part of `dis j · (∑ₖ A k j · Y k c + 2 · Y j c) + bias c`, where `Y k c = dis k · (X W) k c`.  The first result is two
  such layers; the second is a dense layer with its non-negative part over the first, followed by an affine map.

  The reference adds the identity twice to `A`, sums its columns, guards the inverse square root ("one over the square
  root where the degree is positive, else zero") and multiplies by the transposed matrix.  The kernel never forms the
  matrix with self loops: it contracts the first axis of `A` against `Y`, once more against the remainder `Y - Y`, and
  adds `2 · Y`; its inverse square root is unguarded.  With entries that are zeros and ones every degree is a real number
  at least two, so the guard never binds and both inverse square roots are the same positive real; every intermediate
  is then real, the remainder `Y - Y` is zero, and products distribute over the sums of the non-negative entries.  Both
  programs are therefore the one specification (Proof/Spec.lean), entry by entry: the kernel's body by Proof/KernelRead.lean
  over its run restated on whole arrays (Proof/KernelRun.lean), the reference by Proof/RefRead.lean over its generated
  run; the facts about the inputs come from the precondition (Proof/PreFacts.lean).
-/
import proofs.«104248_g70214125355148_fold_wed_m_1087_4_alg».proof.Defs
import proofs.«104248_g70214125355148_fold_wed_m_1087_4_alg».proof.Proof.Gen.Kernel
import proofs.«104248_g70214125355148_fold_wed_m_1087_4_alg».proof.Proof.Gen.Kernel.Skeleton
import proofs.«104248_g70214125355148_fold_wed_m_1087_4_alg».proof.Proof.Gen.Kernel.Launch
import proofs.«104248_g70214125355148_fold_wed_m_1087_4_alg».proof.Proof.Gen.Kernel.Points
import proofs.«104248_g70214125355148_fold_wed_m_1087_4_alg».proof.Proof.Gen.Kernel.Frame
import proofs.«104248_g70214125355148_fold_wed_m_1087_4_alg».proof.Proof.Gen.KernelIdeal
import proofs.«104248_g70214125355148_fold_wed_m_1087_4_alg».proof.Proof.Gen.KernelIdeal.Skeleton
import proofs.«104248_g70214125355148_fold_wed_m_1087_4_alg».proof.Proof.Gen.KernelIdeal.Launch
import proofs.«104248_g70214125355148_fold_wed_m_1087_4_alg».proof.Proof.Gen.KernelIdeal.Points
import proofs.«104248_g70214125355148_fold_wed_m_1087_4_alg».proof.Proof.Gen.KernelIdeal.Frame
import proofs.«104248_g70214125355148_fold_wed_m_1087_4_alg».proof.Proof.Gen.ReferenceIdeal
import proofs.«104248_g70214125355148_fold_wed_m_1087_4_alg».proof.Proof.Gen.Pre_finite_inputs
import proofs.«104248_g70214125355148_fold_wed_m_1087_4_alg».proof.Proof.Gen.KernelIdeal.Value
import proofs.«104248_g70214125355148_fold_wed_m_1087_4_alg».proof.Proof.Gen.ReferenceIdeal.Run
import proofs.«104248_g70214125355148_fold_wed_m_1087_4_alg».proof.Proof.Gen.ReferenceIdeal.Read
import proofs.«104248_g70214125355148_fold_wed_m_1087_4_alg».proof.Proof.PreFacts
import proofs.«104248_g70214125355148_fold_wed_m_1087_4_alg».proof.Proof.KernelRun
import proofs.«104248_g70214125355148_fold_wed_m_1087_4_alg».proof.Proof.KernelRead
import proofs.«104248_g70214125355148_fold_wed_m_1087_4_alg».proof.Proof.RefRead
import Idealize.ShloMosaic.Adequacy
import Idealize.ShloMosaic.Init
import Idealize.ShloMosaic.Lib.ValueLayout

set_option maxRecDepth 16384

noncomputable section

namespace Cert.Proof.Claims

open Idealize.ShloMosaic Idealize.ShloMosaic.TcCoe Idealize.SL.Sem Idealize.ShloMosaic.ValueIdx
open Cert.GcnSpec Cert.GcnAlgebra

/-! ## A bias vector viewed as a one-row array -/

/-- A vector of `b` entries viewed as a `1 × b` array has, in its one row, the vector's entries. -/
theorem row_shapeCast {b : ℕ} (x : (⟨1, ![b]⟩ : Shape).Idx → EReal) (h : (⟨1, ![b]⟩ : Shape).ShapeCasts ⟨2, ![1, b]⟩) :
    row (shapeCast ⟨2, ![1, b]⟩ x h) = vec x :=
  funext fun c => shapeCast_a_1a_apply x h (0 : Fin 1) c

/-- A re-laid array of real numbers holds real numbers. -/
theorem isReal_shapeCast {s t : Shape} (x : s.Idx → EReal) (h : s.ShapeCasts t) (hx : ∀ i, IsReal (x i)) (i : t.Idx) :
    IsReal (shapeCast t x h i) := by
  unfold shapeCast; exact hx _

/-! ## The two results, as whole arrays -/

/-- The reference's first result is the kernel's, entry by entry: both are two layers of the specification. -/
theorem result0 (A : FVec Ideal Cert.KernelIdeal.S1024x1024 .f32) (X : FVec Ideal Cert.KernelIdeal.S1024x128 .f32)
    (W1 : FVec Ideal Cert.KernelIdeal.S128x512 .f32) (b1 : FVec Ideal Cert.KernelIdeal.S512 .f32)
    (W2 : FVec Ideal Cert.KernelIdeal.S512x128 .f32) (b2 : FVec Ideal Cert.KernelIdeal.S128 .f32)
    (hA : ∀ i, A i = (0 : EReal) ∨ A i = (1 : EReal)) (hX : ∀ i, IsReal (X i)) (hW1 : ∀ i, IsReal (W1 i))
    (hb1 : ∀ i, IsReal (b1 i)) (hW2 : ∀ i, IsReal (W2 i))
    (h3 : Cert.KernelIdeal.S512.ShapeCasts Cert.KernelIdeal.S1x512) (h5 : Cert.KernelIdeal.S128.ShapeCasts Cert.KernelIdeal.S1x128) :
    Cert.ReferenceIdeal.Read.val_main_v60 (F := Ideal) A X W1 b1 W2 b2
      = Cert.KernelIdeal.WholeRun.res0 A X W1 (shapeCast Cert.KernelIdeal.S1x512 b1 h3) W2
          (shapeCast Cert.KernelIdeal.S1x128 b2 h5) := by
  funext i
  obtain ⟨j, c, rfl⟩ : ∃ (j : Fin 1024) (c : Fin 128), i = ix2 j c := ⟨i 0, i 1, eq_ix2 i⟩
  rw [Cert.ReferenceIdeal.RefRead.out0_eq A X W1 b1 W2 b2 hA j c,
    Cert.KernelIdeal.Read.res0_apply A X W1 _ W2 _ hA hX hW1 (isReal_shapeCast b1 _ hb1) hW2 j c, row_shapeCast, row_shapeCast]

/-- The reference's second result is the kernel's: the decoder over equal first results. -/
theorem result1 (A : FVec Ideal Cert.KernelIdeal.S1024x1024 .f32) (X : FVec Ideal Cert.KernelIdeal.S1024x128 .f32)
    (W1 : FVec Ideal Cert.KernelIdeal.S128x512 .f32) (b1 : FVec Ideal Cert.KernelIdeal.S512 .f32)
    (W2 : FVec Ideal Cert.KernelIdeal.S512x128 .f32) (b2 : FVec Ideal Cert.KernelIdeal.S128 .f32)
    (F1 : FVec Ideal Cert.KernelIdeal.S128x256 .f32) (f1 : FVec Ideal Cert.KernelIdeal.S256 .f32)
    (F2 : FVec Ideal Cert.KernelIdeal.S256x1 .f32) (f2 : FVec Ideal Cert.KernelIdeal.S1 .f32)
    (hA : ∀ i, A i = (0 : EReal) ∨ A i = (1 : EReal)) (hX : ∀ i, IsReal (X i)) (hW1 : ∀ i, IsReal (W1 i))
    (hb1 : ∀ i, IsReal (b1 i)) (hW2 : ∀ i, IsReal (W2 i))
    (h3 : Cert.KernelIdeal.S512.ShapeCasts Cert.KernelIdeal.S1x512) (h5 : Cert.KernelIdeal.S128.ShapeCasts Cert.KernelIdeal.S1x128)
    (h7 : Cert.KernelIdeal.S256.ShapeCasts Cert.KernelIdeal.S1x256) (h9 : Cert.KernelIdeal.S1.ShapeCasts Cert.KernelIdeal.S1x1) :
    Cert.ReferenceIdeal.Read.val_main_v69 (F := Ideal) A X W1 b1 W2 b2 F1 f1 F2 f2
      = Cert.KernelIdeal.WholeRun.res1 A X W1 (shapeCast Cert.KernelIdeal.S1x512 b1 h3) W2
          (shapeCast Cert.KernelIdeal.S1x128 b2 h5) F1
          (shapeCast Cert.KernelIdeal.S1x256 f1 h7) F2
          (shapeCast Cert.KernelIdeal.S1x1 f2 h9) := by
  funext i
  obtain ⟨j, u, rfl⟩ : ∃ (j : Fin 1024) (u : Fin 1), i = ix2 j u := ⟨i 0, i 1, eq_ix2 i⟩
  rw [Cert.ReferenceIdeal.RefRead.out1_eq A X W1 b1 W2 b2 F1 f1 F2 f2 hA j u,
    Cert.KernelIdeal.Read.res1_apply A X W1 _ W2 _ F1 _ F2 _ hA hX hW1 (isReal_shapeCast b1 _ hb1) hW2 j u,
    row_shapeCast, row_shapeCast, row_shapeCast, row_shapeCast]

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The two narrowings to the half-width format and back that the idealized kernel drops are the identity at the exact values. -/
theorem preserves : Cert.preserves_Kernel_KernelIdeal :=
  ⟨IdealRules.truncf_extf.statement _ .f32 .bf16, IdealRules.truncf_extf.statement _ .f32 .bf16⟩

/-- From memories that agree on the ten arguments, the kernel's two result arrays and the reference's are equal: the
    precondition gives an adjacency of zeros and ones and real features and weights, under which both are the specification. -/
theorem algebraic : Cert.algebraic_KernelIdeal_ReferenceIdeal := by
  intro m ρ m' ρ' hpre hagree
  refine ⟨_, _, Cert.KernelIdeal.WholeRun.run (F := Ideal) m ρ, ?_⟩
  refine (θ_run Cert.ReferenceIdeal.defs _ _).mono (fun r h c => ?_) (Cert.ReferenceIdeal.Value.run (F := Ideal) m' ρ')
  obtain ⟨h60, h69, hargs⟩ := h c
  obtain ⟨e0, e1, e2, e3, e4, e5, e6, e7, e8, e9⟩ := hagree c
  obtain ⟨hA, hX, hW1, hb1, hW2⟩ := Cert.PreFacts.facts _ _ _ _ _ _ _ _ _ _ (hpre c)
  refine ⟨h60.trans ?_, h69.trans ?_, hargs⟩
  · rw [Cert.ReferenceIdeal.Read.val_main_v60_eq, e0, e1, e2, e3, e4, e5]
    exact result0 _ _ _ _ _ _ hA hX hW1 hb1 hW2 _ _
  · rw [Cert.ReferenceIdeal.Read.val_main_v69_eq, e0, e1, e2, e3, e4, e5, e6, e7, e8, e9]
    exact result1 _ _ _ _ _ _ _ _ _ _ hA hX hW1 hb1 hW2 _ _ _ _

end Cert.Proof.Claims

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
